-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x64x16 : Shape := ⟨3, ![1024, 64, 16]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S256x1024 .f32) (main_arg1 : FVec F S1024x64x16 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S256x1024 : Shape := ⟨2, ![256, 1024]⟩
abbrev S1024x64x16 : Shape := ⟨3, ![1024, 64, 16]⟩
abbrev S1024x1024 : Shape := ⟨2, ![1024, 1024]⟩
abbrev S128x1024 : Shape := ⟨2, ![128, 1024]⟩
abbrev S256x64x16 : Shape := ⟨3, ![256, 64, 16]⟩
abbrev S256x64 : Shape := ⟨2, ![256, 64]⟩
abbrev S32x64x16 : Shape := ⟨3, ![32, 64, 16]⟩
abbrev S32x64 : Shape := ⟨2, ![32, 64]⟩
abbrev S1x64x16 : Shape := ⟨3, ![1, 64, 16]⟩
abbrev S64x16 : Shape := ⟨2, ![64, 16]⟩

abbrev nBuf : Space → Nat
  | .hbm => 6
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024x64x16, .f32⟩
  | .hbm, ⟨2, _⟩ => ⟨S1024x1024, .f32⟩
  | .hbm, ⟨3, _⟩ => ⟨S256x1024, .f32⟩
  | .hbm, ⟨4, _⟩ => ⟨S256x64x16, .f32⟩
  | .hbm, ⟨5, _⟩ => ⟨S256x64, .f32⟩
  | .local _ .vmem, ⟨0, _⟩ => ⟨S128x1024, .f32⟩
  | .local _ .vmem, ⟨1, _⟩ => ⟨S128x1024, .f32⟩
  | .local _ .vmem, ⟨2, _⟩ => ⟨S1024x1024, .f32⟩
  | .local _ .vmem, ⟨3, _⟩ => ⟨S128x1024, .f32⟩
  | .local _ .vmem, ⟨4, _⟩ => ⟨S128x1024, .f32⟩
  | .local _ .vmem, ⟨5, _⟩ => ⟨S32x64x16, .f32⟩
  | .local _ .vmem, ⟨6, _⟩ => ⟨S32x64x16, .f32⟩
  | .local _ .vmem, ⟨7, _⟩ => ⟨S32x64x16, .f32⟩
  | .local _ .vmem, ⟨8, _⟩ => ⟨S32x64x16, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

@[reducible] def k1_t1_loop : Scf.Loop 32 :=
  let c0_i32_3 : BitVec 32 := 0#32
  let c32_i32 : BitVec 32 := 32#32
  let v6 : BitVec 32 := Scalar.addi c0_i32_3 c32_i32
  let c1_i32 : BitVec 32 := 1#32
  ⟨c0_i32_3, v6, c1_i32⟩
def k1_off1 (k1_t1 : Fin k1_t1_loop.trips) : Fin 3 → Nat :=
  let c0_i32_3 : BitVec 32 := 0#32
  let c1_i32 : BitVec 32 := 1#32
  let arg6 : BitVec 32 := Scf.iv c0_i32_3 c1_i32 k1_t1
  let v16 : Index := Scalar.indexCast arg6
  let c0_10 : Index := 0#32
  let c0_11 : Index := 0#32
  ![v16.toNat, 0, 0]
def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_9 : BitVec 32 := 0#32
  let v15 : BitVec 1 := Scalar.cmpi .ne v14 c0_i32_9
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x64x16_S1024x1024 : S1024x64x16.ShapeCasts S1024x1024
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x64x16 : S256x1024.ShapeCasts S256x64x16
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x64x16_S32x64x16_0_0_0 : ∀ a, (![0, 0, 0] : Fin 3 → Nat) a + S32x64x16.size a ≤ S32x64x16.size a
  h_S32x64x16 : 0 < S32x64x16.numel
  shapeCasts_S32x64x16_S32x64x16 : S32x64x16.ShapeCasts S32x64x16
  h_S1x64x16 : 0 < S1x64x16.numel
  shapeCasts_S1x64x16_S64x16 : S1x64x16.ShapeCasts S64x16
  shapeCasts_S64x16_S1x64x16 : S64x16.ShapeCasts S1x64x16
  broadcasts_S1x64x16_S32x64x16 : S1x64x16.Broadcasts S32x64x16
  reduces_S32x64x16_S32x64 : S32x64x16.Reduces [2] S32x64
  inb_S32x64x16_S1x64x16_31_0_0 : ∀ a, (![31, 0, 0] : Fin 3 → Nat) a + S1x64x16.size a ≤ S32x64x16.size a
  iota_S32x64_d0_w32 : S32x64.Iotas .tc 32 [0]
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .f32 = 32 ∨ (Rect.block (s := S256x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S256x1024.size a
  hwx0_2 : ∀ i : grid0.Coords, EltTy.bits .f32 = 32 ∨ (Rect.block (s := S256x1024) S128x1024.size (cc0_transform_2 i) (hinb0_2 i)).WholeWords (EltTy.packing .f32)
  hrank1 : 0 < grid1.rank
  k1_t1_ok : k1_t1_loop.OK
  k1_off1_inb : ∀ k1_t1 : Fin k1_t1_loop.trips, ∀ a, (k1_off1 k1_t1) a + S1x64x16.size a ≤ S32x64x16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x16.size a ≤ S256x64x16.size a
  hwx1_0 : ∀ i : grid1.Coords, EltTy.bits .f32 = 32 ∨ (Rect.block (s := S256x64x16) S32x64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x16.size a ≤ S256x64x16.size a
  hwx1_1 : ∀ i : grid1.Coords, EltTy.bits .f32 = 32 ∨ (Rect.block (s := S256x64x16) S32x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S256x64.size a
  hwx1_2 : ∀ i : grid1.Coords, EltTy.bits .f32 = 32 ∨ (Rect.block (s := S256x64) S32x64.size (cc1_transform_2 i) (hinb1_2 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S32x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S32x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S32x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x1024 : Shape := ⟨2, ![256, 1024]⟩
abbrev S1024x64x16 : Shape := ⟨3, ![1024, 64, 16]⟩
abbrev S1024x1024 : Shape := ⟨2, ![1024, 1024]⟩
abbrev S256x64x16 : Shape := ⟨3, ![256, 64, 16]⟩
abbrev S256x1x64x16 : Shape := ⟨4, ![256, 1, 64, 16]⟩
abbrev S1x256x64x16 : Shape := ⟨4, ![1, 256, 64, 16]⟩
abbrev S256x256x64x16 : Shape := ⟨4, ![256, 256, 64, 16]⟩
abbrev S_ : Shape := ⟨0, ![]⟩
abbrev S256x256x64 : Shape := ⟨3, ![256, 256, 64]⟩
abbrev S256x64 : Shape := ⟨2, ![256, 64]⟩
abbrev S256 : Shape := ⟨1, ![256]⟩
abbrev S256x1 : Shape := ⟨2, ![256, 1]⟩
abbrev S256x1x64 : Shape := ⟨3, ![256, 1, 64]⟩

abbrev nBuf : Space → Nat
  | .hbm => 29
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x64x16, .f32⟩
  | .hbm, ⟨2, _⟩ => ⟨S1024x1024, .f32⟩
  | .hbm, ⟨3, _⟩ => ⟨S256x1024, .f32⟩
  | .hbm, ⟨4, _⟩ => ⟨S256x64x16, .f32⟩
  | .hbm, ⟨5, _⟩ => ⟨S256x1x64x16, .f32⟩
  | .hbm, ⟨6, _⟩ => ⟨S1x256x64x16, .f32⟩
  | .hbm, ⟨7, _⟩ => ⟨S256x256x64x16, .f32⟩
  | .hbm, ⟨8, _⟩ => ⟨S256x256x64x16, .f32⟩
  | .hbm, ⟨9, _⟩ => ⟨S256x256x64x16, .f32⟩
  | .hbm, ⟨10, _⟩ => ⟨S256x256x64x16, .f32⟩
  | .hbm, ⟨11, _⟩ => ⟨S_, .f32⟩
  | .hbm, ⟨12, _⟩ => ⟨S256x256x64, .f32⟩
  | .hbm, ⟨13, _⟩ => ⟨S256x256x64, .f32⟩
  | .hbm, ⟨14, _⟩ => ⟨S256x256x64, .f32⟩
  | .hbm, ⟨15, _⟩ => ⟨S_, .f32⟩
  | .hbm, ⟨16, _⟩ => ⟨S256x64, .f32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256x1, .i1⟩
  | .hbm, ⟨22, _⟩ => ⟨S256x1x64, .f32⟩
  | .hbm, ⟨23, _⟩ => ⟨S256x64, .f32⟩
  | .hbm, ⟨24, _⟩ => ⟨S_, .f32⟩
  | .hbm, ⟨25, _⟩ => ⟨S256x64, .i1⟩
  | .hbm, ⟨26, _⟩ => ⟨S256x64, .f32⟩
  | .hbm, ⟨27, _⟩ => ⟨S256x64, .f32⟩
  | .hbm, ⟨28, _⟩ => ⟨S256x64, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S256x1024_S256x64x16 : S256x1024.ShapeCasts S256x64x16
  bcast_S256x64x16_S256x1x64x16_0_2_3 : S256x64x16.BroadcastsInDim S256x1x64x16 (![0, 2, 3] : Fin 3 → Fin S256x1x64x16.rank)
  bcast_S256x64x16_S1x256x64x16_1_2_3 : S256x64x16.BroadcastsInDim S1x256x64x16 (![1, 2, 3] : Fin 3 → Fin S1x256x64x16.rank)
  bcast_S256x1x64x16_S256x256x64x16_0_1_2_3 : S256x1x64x16.BroadcastsInDim S256x256x64x16 (![0, 1, 2, 3] : Fin 4 → Fin S256x256x64x16.rank)
  bcast_S1x256x64x16_S256x256x64x16_0_1_2_3 : S1x256x64x16.BroadcastsInDim S256x256x64x16 (![0, 1, 2, 3] : Fin 4 → Fin S256x256x64x16.rank)
  reducesTo_S256x256x64x16_S256x256x64_d3 : S256x256x64x16.ReducesTo [3] S256x256x64
  h_S_ : 0 < S_.numel
  reducesTo_S256x256x64_S256x64_d1 : S256x256x64.ReducesTo [1] S256x64
  bcast_S_S256 : S_.BroadcastsInDim S256 (![] : Fin 0 → Fin S256.rank)
  bcast_S256_S256x1_0 : S256.BroadcastsInDim S256x1 (![0] : Fin 1 → Fin S256x1.rank)
  slices_S256x256x64_S256x1x64_0_255_0 : S256x256x64.Slices ![0, 255, 0] S256x1x64
  shapeCasts_S256x1x64_S256x64 : S256x1x64.ShapeCasts S256x64
  bcast_S256x1_S256x64_0_1 : S256x1.BroadcastsInDim S256x64 (![0, 1] : Fin 2 → Fin S256x64.rank)
  bcast_S_S256x64 : S_.BroadcastsInDim S256x64 (![] : Fin 0 → Fin S256x64.rank)
  dot_S256x1024_S1024x1024_S256x1024_1_0_0_1_n_n_wf : DotDims.WF S256x1024 S1024x1024 S256x1024 [1] [0] [0] [1] [] []

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

class Facts : Prop extends Facts₀ where

variable [Facts]
-- ==== Proof.BFrameR0.lean ====
/-
  The first kernel region (the matrix product), at any contents `V` of the core's buffers on entry.

  The grid has two points; point t reads rows 128·t … 128·t+127 of the left operand (window 0) and the whole
  right operand (window 1, staged once), and writes rows 128·t … 128·t+127 of the result (window 2). What the
  body leaves in the result's staging buffer is one store covering it: the product payload of the two blocks read.
-/
import proofs.«113968_j41326175322776_2_alg».proof.Proof.Gen.Kernel.Launch
import proofs.«113968_j41326175322776_2_alg».proof.Proof.Gen.Kernel.Skeleton
import proofs.«113968_j41326175322776_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one rectangle per buffer: the whole buffer. -/
abbrev r0_a : Rect S128x1024 := Rect.unit (s := S128x1024) ![0, 0] S128x1024.size inb_S128x1024_S128x1024_0_0
abbrev r0_b : Rect S1024x1024 := Rect.unit (s := S1024x1024) ![0, 0] S1024x1024.size inb_S1024x1024_S1024x1024_0_0

/-- The result window's staging buffer after the body: its one store, the product payload of the two blocks. -/
def out0_2 (x0 : Vec F S128x1024 .f32) (x1 : Vec F S1024x1024 .f32) : Vec F S128x1024 .f32 :=
  View.canon [⟨r0_a, k0_pay1 (View.ld x0 r0_a) (View.ld x1 r0_b)⟩]

/-- The store covers the buffer. -/
theorem cover0_2 (p0 : Vec F S128x1024 .f32) (y : S128x1024.Idx) :
    ∃ pc ∈ ([⟨r0_a, p0⟩] : List (View.Piece (Elt F) S128x1024 .f32)), y ∈ pc.1.set :=
  View.cover_of_tiled [⟨r0_a, p0⟩] S128x1024.size (by rfl) y

set_option maxHeartbeats 1000000 in
/-- The body on whole staging buffers: the inputs are read and kept, the output ends at `out0_2` of the inputs. -/
theorem sound_kernel0 (c : Dev nD) (E : Set ℕ) (i : grid0.Coords) (arg1 : Memref sig .tc .vmem S128x1024 .f32) (harg1 : arg1.IsWhole)
    (arg2 : Memref sig .tc .vmem S1024x1024 .f32) (harg2 : arg2.IsWhole) (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.BFrameR1a.lean ====
/-
  The second kernel region (pairwise distances, exponentials, row sums): what its three control cases share.

  The grid is 8 × 8, point t = 8·i + j. Window 0 holds rows 32·i … 32·i+31 of the product (fetched when i changes),
  window 1 rows 32·j … 32·j+31 of the same array (fetched at every point), window 2 rows 32·i … 32·i+31 of the result,
  written back when j = 7 and idle elsewhere. A scratch accumulator is reset when j = 0, added to at every point and
  read into the result when j = 7. The two conditions are decided over the grid in closed form.
-/
import proofs.«113968_j41326175322776_2_alg».proof.Proof.Gen.Kernel.Launch
import proofs.«113968_j41326175322776_2_alg».proof.Proof.Gen.Kernel.Skeleton
import proofs.«113968_j41326175322776_2_alg».proof.Proof.Gen.Kernel.Points
import proofs.«113968_j41326175322776_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- The first condition (the accumulator is reset): the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second condition (the result is stored): the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging and scratch buffers at a point -/

abbrev VO1_2 : View sig .tc .vmem S32x64 .f32 := (Memref.whole cc1_stg2_0 : Memref sig .tc .vmem S32x64 .f32).view
abbrev ms1_0 (t : Fin cfg1.N) : Memref sig .tc .vmem S32x64x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x64x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1_0 : Memref sig .tc .vmem S32x64 .f32 := Memref.whole cc1_scratch0
abbrev VS1_0 : View sig .tc .vmem S32x64 .f32 := scM1_0.view

/-- The class invariant of the second pipeline: the first pipeline's staging buffers at anything, the scratch
    accumulator at anything, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Fr

end
-- ==== Proof.BFrameR1RunA.lean ====
/-
  The second kernel's body run whole on any staging buffers, in the case where the second coordinate is 0 (the accumulator is reset first; nothing is stored into the result's buffer).
  The pieces each buffer ends with are found by the run itself; the inner loop over the 32 rows of the second block
  is passed by its invariant (the carried partial sum before each trip).
-/
import proofs.«113968_j41326175322776_2_alg».proof.Proof.BFrameR1a

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i)
    (x0 : Vec F S32x64x16 .f32) (x1 : Vec F S32x64x16 .f32) :
    Σ' (L2 : List (View.Piece (Elt F) S32x64 .f32)), { LS0 : List (View.Piece (Elt F) S32x64 .f32) //
      ∀ (xi2 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.BFrameR1RunB.lean ====
/-
  The second kernel's body run whole on any staging buffers, in the case where the second coordinate is neither 0 nor 7 (the accumulator is added to; nothing is stored into the result's buffer).
  The pieces each buffer ends with are found by the run itself; the inner loop over the 32 rows of the second block
  is passed by its invariant (the carried partial sum before each trip).
-/
import proofs.«113968_j41326175322776_2_alg».proof.Proof.BFrameR1a

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i)
    (x0 : Vec F S32x64x16 .f32) (x1 : Vec F S32x64x16 .f32) (xs0 : Vec F S32x64 .f32) :
    Σ' (L2 : List (View.Piece (Elt F) S32x64 .f32)), { LS0 : List (View.Piece (Elt F) S32x64 .f32) //
      ∀ (xi2 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.BFrameR1RunC.lean ====
/-
  The second kernel's body run whole on any staging buffers, in the case where the second coordinate is 7 (the accumulator is added to and the result's buffer stored).
  The pieces each buffer ends with are found by the run itself; the inner loop over the 32 rows of the second block
  is passed by its invariant (the carried partial sum before each trip).
-/
import proofs.«113968_j41326175322776_2_alg».proof.Proof.BFrameR1a

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i)
    (x0 : Vec F S32x64x16 .f32) (x1 : Vec F S32x64x16 .f32) (xs0 : Vec F S32x64 .f32) :
    Σ' (L2 : List (View.Piece (Elt F) S32x64 .f32)), { LS0 : List (View.Piece (Elt F) S32x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.BFrameR1.lean ====
/-
  The second kernel region at any entry contents `V`: what the result window's buffer and the scratch accumulator hold
  after each of the 64 points (by recursion on the point: the accumulator is reset when the second coordinate is 0 and
  otherwise continues from the point before), the proof data (the two input windows share one array, each at half a
  share), and the body obligation by cases on the two conditions.
-/
import proofs.«113968_j41326175322776_2_alg».proof.Proof.BFrameR1RunA
import proofs.«113968_j41326175322776_2_alg».proof.Proof.BFrameR1RunB
import proofs.«113968_j41326175322776_2_alg».proof.Proof.BFrameR1RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What case A leaves in the result window's buffer: its pieces read back over anything (no piece: a placeholder nothing consults, the window being idle there). -/
def out1_A_2 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S32x64x16 .f32) : Vec F S32x64 .f32 :=
  VO1_2.read (Elt F) (VO1_2.writes (Elt F) VO1_2.junk (kernelRun1_A c i arg2 harg2 arg3 harg3 arg4 harg4 arg5 harg5 hc0 hc1 x0 x1).1)

/-- Case A's pieces for the scratch accumulator cover it. -/
theorem scover1_A_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S32x64x16 .f32) (y : S32x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S32x64.size (by sl_kernel_rfl) y

/-- What case A leaves in the scratch accumulator. -/
def sout1_A_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S32x64x16 .f32) : Vec F S32x64 .f32 :=
  VS1_0.read (Elt F) (VS1_0.writes (Elt F) VS1_0.junk (kernelRun1_A c i arg2 harg2 arg3 harg3 arg4 harg4 arg5 harg5 hc0 hc1 x0 x1).2.1)

/-- What case B leaves in the result window's buffer: its pieces read back over anything (no piece: a placeholder nothing consults, the window being idle there). -/
def out1_B_2 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S32x64x16 .f32) (xs0 : Vec F S32x64 .f32) : Vec F S32x64 .f32 :=
  VO1_2.read (Elt F) (VO1_2.writes (Elt F) VO1_2.junk (kernelRun1_B c i arg2 harg2 arg3 harg3 arg4 harg4 arg5 harg5 hc0 hc1 x0 x1 xs0).1)

/-- Case B's pieces for the scratch accumulator cover it. -/
theorem scover1_B_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S32x64x16 .f32) (xs0 : Vec F S32x64 .f32) (y : S32x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S32x64.size (by sl_kernel_rfl) y

/-- What case B leaves in the scratch accumulator. -/
def sout1_B_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S32x64x16 .f32) (xs0 : Vec F S32x64 .f32) : Vec F S32x64 .f32 :=
  VS1_0.read (Elt F) (VS1_0.writes (Elt F) VS1_0.junk (kernelRun1_B c i arg2 harg2 arg3 harg3 arg4 harg4 arg5 harg5 hc0 hc1 x0 x1 xs0).2.1)

/-- What case C leaves in the result window's buffer: its pieces read back over anything. -/
def out1_C_2 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S32x64x16 .f32) (xs0 : Vec F S32x64 .f32) : Vec F S32x64 .f32 :=
  VO1_2.read (Elt F) (VO1_2.writes (Elt F) VO1_2.junk (kernelRun1_C c i arg2 harg2 arg3 harg3 arg4 harg4 arg5 harg5 hc0 hc1 x0 x1 xs0).1)

/-- Case C's pieces for the scratch accumulator cover it. -/
theorem scover1_C_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S32x64x16 .f32) (xs0 : Vec F S32x64 .f32) (y : S32x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S32x64.size (by sl_kernel_rfl) y

/-- What case C leaves in the scratch accumulator. -/
def sout1_C_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S32x64x16 .f32) (xs0 : Vec F S32x64 .f32) : Vec F S32x64 .f32 :=
  VS1_0.read (Elt F) (VS1_0.writes (Elt F) VS1_0.junk (kernelRun1_C c i arg2 harg2 arg3 harg3 arg4 harg4 arg5 harg5 hc0 hc1 x0 x1 xs0).2.1)

/-- Case C's pieces for the result window's buffer cover it. -/
theorem cover1_C_2 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S32x64x16 .f32) (xs0 : Vec F S32x64 .f32) (y : S32x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S32x64.size (by sl_kernel_rfl) y

section Region1
variable (V : (c : Dev nD) → (b : Ref sig .tc) → Buf (Elt F) ((c : Thread nD τ).loc b))

/-! ## What the result window's buffer and the accumulator hold after each point -/

/-- After the body at position `n`: the result window's buffer and the scratch accumulator, the case chosen by the
    closed forms, the accumulator read at what position `n - 1` left. -/
def outsAt1 (c : Dev nD) : (n : ℕ) → n < cfg1.N → Vec F S32x64 .f32 × Vec F S32x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The class invariant with the scratch accumulator's part replaced by `S`. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_with (c : Dev nD) : (Pipeline.ΦA spec1 c : sProp 𝕄) = PhiWith c (iprop(∃ d, owns (c : Thread nD τ) scM1_0 fullShare d)) := by
  rw [PhiA1_eq]; rfl

/-- The region invariant before position `n`: before the first point the class's; afterwards the accumulator at
    what the point before left in it. -/
def PhiS (c : Dev nD) : (n : ℕ) → n ≤ cfg1.N → sProp 𝕄
  | 0, _ => Pipeline.ΦA spec1 c
  | n + 1, hn => PhiWith c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM1_0 fullShare ((outsAt1 V c n hn).2)) := rfl

theorem PhiS_pos (c : Dev nD) (n : ℕ) (h : n ≤ cfg1.N) (hz : n ≠ 0) :
    PhiS V c n h = PhiWith c (owns (c : Thread nD τ) scM1_0 fullShare ((outsAt1 V c (n - 1) (by omega)).2)) := by
  cases n with
  | zero => exact absurd rfl hz
  | succ n => rfl

/-! ## The pipeline's proof data -/

/-- The proof data of the second pipeline on core `c`. The two input windows read one array, each at half a share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [leaves1_0, leaves1_1]
  have hN : t.val < 64 := lt_of_lt_of_eq t.isLt (show cfg1.N = 64 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    have hΦ : (dat1 V c).Φ t.castSucc ⊢ PhiWith c (iprop(∃ d, owns (c : Thread nD τ) scM1_0 fullShare d)) := by
      rw [PhiS_castSucc V c t]
      by_cases hz : t.val = 0
      · rw [PhiS_zero V c _ _ hz, PhiA1_with]
      · rw [PhiS_pos V c _ _ hz]; unfold PhiWith
        iintro ⟨⟨Ha, Hb, Hc, Hd, He, HS0⟩, Hg⟩
        isplitr [Hg]
        · isplitl [Ha]; · iexact Ha
          isplitl [Hb]; · iexact Hb
          isplitl [Hc]; · iexact Hc
          isplitl [Hd]; · iexact Hd
          isplitl [He]; · iexact He
          iexists _; iexact HS0
        iexact Hg
    refine (sep_mono hΦ .rfl).trans ?_
    unfold PhiWith
    iintro ⟨⟨⟨Ha, Hb, Hc, Hd, He, HS0⟩, Hg⟩, Ho, ⟨%d0, H0⟩, ⟨%d1, H1⟩, ⟨%d2, H2⟩⟩
    iapply ((kernelRun1_A c (grid1.coords t) _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [Ha Hb Hc Hd He HS0 Hg]
    · isplitr [Hg]
      · isplitl [Ha]; · iexact Ha
        isplitl [Hb]; · iexact Hb
        isplitl [Hc]; · iexact Hc
        isplitl [Hd]; · iexact Hd
        isplitl [He]; · iexact He
        unfold owns; iexists _; isplitr
        swap; · iexact HS0
        ipureintro; exact View.read_writes_of_cover _ _ _ _ _ (scover1_A_0 c _ _ _ _ _ _ _ _ _ _ _ _ _)
      iexact Hg
    isplitl [Ho]; · iexact Ho
    isplitl [H0]; · iexact H0
    isplitl [H1]; · iexact H1
    iexists _; iexact H2
  · have hz : t.val ≠ 0 := by omega
    rw [PhiS_castSucc V c t, PhiS_pos V c _ _ hz]
    unfold PhiWith
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      iintro ⟨⟨⟨Ha, Hb, Hc, Hd, He, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      iintro ⟨⟨⟨Ha, Hb, Hc, Hd, He, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ hne, PhiA1_with]
  unfold PhiWith
  iintro ⟨⟨Ha, Hb, Hc, Hd, He, HS0⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS0
  iexact Hg

end Region1

end Cert.Kernel.Fr

end
-- ==== Proof.BFrameR1x.lean ====
/-
  Entering and leaving the second kernel region when its two input windows read ONE array: on entry the array, held
  whole, is split into two half shares, one per window; on exit the two halves — each still at the entry contents,
  an input window's array never changing — are joined again, and the result's array is taken at what the write-backs left.
-/
import proofs.«113968_j41326175322776_2_alg».proof.Proof.BFrameR1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- A core's unscoped buffers: the product array, the result array, and the rest. -/
theorem ub1_eq (c : Dev nD) (V : (b : Ref sig .tc) → Buf (Elt F) ((c : Thread nD τ).loc b)) :
    (unscopedBufs c V : sProp 𝕄) = iprop(((((c : Thread nD τ).loc main_v2) ↦{fullShare} V main_v2) ∗ (((c : Thread nD τ).loc main_v3) ↦{fullShare} V main_v3)) ∗ Pipeline.unscopedRest spec1 c V) := by
  rw [Pipeline.unscopedBufs_split₀ cfgs (1 : Fin 2) winFacts₀1.arr_unscoped c V]
  unfold Pipeline.arrBufs
  rw [bigSep_eq_bigSepL_of_eq [main_v2, main_v3] (by decide) (by decide)]
  rfl

/-- The second pipeline's arrays, window by window: the product array at the two half shares, the result array whole. -/
theorem arrays1_eq (c : Dev nD) (G : (w : Fin cfg1.W) → Buf (Elt F) ((cfg1.win w).arr.view.loc (c : Thread nD τ))) :
    ((dat1 V c).arrays G : sProp 𝕄) = iprop((((c : Thread nD τ).loc main_v2) ↦{fullShare.left} G 0) ∗ (((c : Thread nD τ).loc main_v2) ↦{fullShare.right} G 1) ∗ (((c : Thread nD τ).loc main_v3) ↦{fullShare} G 2)) := by
  unfold Dat.arrays
  rw [bigSep_W1, (arr_whole1 0).set_eq_univ, (arr_whole1 2).set_eq_univ]
  rfl

theorem entry1 (c : Dev nD) :
    (unscopedBufs c (V c) : sProp 𝕄) ⊢ iprop((dat1 V c).arrays ((dat1 V c).arrAt · 0) ∗ Pipeline.unscopedRest spec1 c (V c)) := by
  rw [ub1_eq, arrays1_eq]
  iintro ⟨⟨H2, H3⟩, Hr⟩
  ihave H2 := (pointsTo_share (PosShare.mem_left_op_right fullShare)).1 $$ H2
  icases H2 with ⟨H2a, H2b⟩
  isplitr [Hr]
  · isplitl [H2a]; · iexact H2a
    isplitl [H2b]; · iexact H2b
    iexact H3
  iexact Hr

theorem exit1 (c : Dev nD) (V' : (b : Ref sig .tc) → Buf (Elt F) ((c : Thread nD τ).loc b))
    (h2 : V' main_v2 = V c main_v2) (h3 : V' main_v3 = (dat1 V c).arrAt 2 cfg1.N)
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  have hr : (Pipeline.unscopedRest spec1 c V' : sProp 𝕄) = Pipeline.unscopedRest spec1 c (V c) := by
    unfold Pipeline.unscopedRest
    exact bigSep_congr fun b hb => by rw [hrest b (Finset.mem_sdiff.mp hb).2]
  rw [ub1_eq, arrays1_eq, hr, h2, h3]
  rw [show (dat1 V c).arrAt 0 cfg1.N = V c main_v2 from ((dat1 V c).arrAt_in 0 rfl _).trans (A_eq1 V c 0),
    show (dat1 V c).arrAt 1 cfg1.N = V c main_v2 from ((dat1 V c).arrAt_in 1 rfl _).trans (A_eq1 V c 1)]
  iintro ⟨⟨H2a, H2b, H3⟩, Hr⟩
  isplitr [Hr]
  · isplitl [H2a H2b]
    · iapply (pointsTo_share (PosShare.mem_left_op_right fullShare)).2
      isplitl [H2a] <;> iassumption
    iexact H3
  iexact Hr

end Region1

end Cert.Kernel.Fr

end
-- ==== Proof.BFrameRun.lean ====
/-
  The whole run: a reshape on the host, the first kernel region, a reshape on the host, the second kernel region.

  The contents of the core's buffers at each boundary are a fold from the launch memory: a host stretch applies its
  operations; the first region leaves its result array at what its write-backs give; the second leaves the final
  result array at what ITS write-backs give and every other buffer as it found it. Every weakly fair execution
  terminates, faultless, with every unscoped buffer at the last boundary's contents — in particular the two argument
  arrays as launched (no stretch and no region writes them) and the result array at the second pipeline's write-backs.
-/
import proofs.«113968_j41326175322776_2_alg».proof.Proof.BFrameR0
import proofs.«113968_j41326175322776_2_alg».proof.Proof.BFrameR1x
import proofs.«113968_j41326175322776_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: the result array at what the pipeline leaves, every other buffer as entered. -/
def W4 (c : Dev nD) : Valuation τ sig (Elt F) :=
  Function.update (W3 m c) main_v3 ((dat1 (V3 m) c).arrAt 2 cfg1.N)
theorem W4_v3 (c : Dev nD) : W4 m c main_v3 = (dat1 (V3 m) c).arrAt 2 cfg1.N := by
  unfold W4; exact Function.update_self ..
theorem W4_of_ne (c : Dev nD) (b : Ref sig .tc) (hb : b ≠ main_v3) : W4 m c b = W3 m c b := by
  unfold W4
  exact Function.update_of_ne (StableHlo.devRef_ne_of_ne hb : (Proc.devRef .tc b : DevRef τ sig) ≠ Proc.devRef .tc main_v3) _ _
abbrev V4 : (c : Dev nD) → (b : Ref sig .tc) → Buf (Elt F) ((c : Thread nD τ).loc b) := fun c b => W4 m c b

/-- No stretch and no region writes an argument: the last boundary's contents at it are the launch's. -/
theorem W4_main_arg0 (c : Dev nD) : W4 m c main_arg0 = m ((c : Thread nD τ).loc main_arg0) :=
  calc W4 m c main_arg0
    _ = W3 m c main_arg0 := W4_of_ne m c main_arg0 (by decide)
    _ = W2 m c main_arg0 := StableHlo.after_of_writes_sub hostOps1 _ hostOps1_writes (by decide : main_arg0 ∉ hostOps1_W)
    _ = W1 m c main_arg0 := (W2_arr m c 0).trans (((dat0 (V1 m) c).arrAt_in 0 rfl _).trans (A_eq0 (V1 m) c 0))
    _ = W0 m c main_arg0 := StableHlo.after_of_writes_sub hostOps0 _ hostOps0_writes (by decide : main_arg0 ∉ hostOps0_W)
    _ = m ((c : Thread nD τ).loc main_arg0) := rfl
theorem W4_main_arg1 (c : Dev nD) : W4 m c main_arg1 = m ((c : Thread nD τ).loc main_arg1) :=
  calc W4 m c main_arg1
    _ = W3 m c main_arg1 := W4_of_ne m c main_arg1 (by decide)
    _ = W2 m c main_arg1 := StableHlo.after_of_writes_sub hostOps1 _ hostOps1_writes (by decide : main_arg1 ∉ hostOps1_W)
    _ = W1 m c main_arg1 := W2_of_ne m c main_arg1 (by decide)
    _ = W0 m c main_arg1 := StableHlo.after_of_writes_sub hostOps0 _ hostOps0_writes (by decide : main_arg1 ∉ hostOps0_W)
    _ = m ((c : Thread nD τ).loc main_arg1) := rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := exit1 (V3 m) c (V4 m c) (W4_of_ne m c main_v2 (by decide)) (W4_v3 m c)
      (fun b hb => W4_of_ne m c b fun e => hb (Finset.mem_image.mpr ⟨2, Finset.mem_univ _, e.symm⟩))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: every weakly fair execution of @main terminates, faultless, and every final memory holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_main_arg0 m c),
    (h c _ (mem_uc main_arg1 (by decide))).trans (W4_main_arg1 m c)⟩) (run_all m ρ)

/-- THE RUN, read at the result and the arguments: the result array ends at what the second pipeline's write-backs
    leave, the argument arrays as launched. -/
theorem run_result : θ_run defs (onTc (τ := τ) (main (F := F))) ⟨m, fun _ => 0, ρ⟩ (fun r => ∀ c : Dev nD,
      r.2.mem ((c.tc : Thread nD τ).loc main_v3) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_v3 (by decide))).trans (W4_v3 m c),
    (h c _ (mem_uc main_arg0 (by decide))).trans (W4_main_arg0 m c),
    (h c _ (mem_uc main_arg1 (by decide))).trans (W4_main_arg1 m c)⟩) (run_all m ρ)

end Cert.Kernel.Fr

end
-- ==== Proof.FrameR0.lean ====
/-
  The first kernel region (the matrix product), at any contents `V` of the core's buffers on entry.

  The grid has two points; point t reads rows 128·t … 128·t+127 of the left operand (window 0) and the whole
  right operand (window 1, staged once), and writes rows 128·t … 128·t+127 of the result (window 2). What the
  body leaves in the result's staging buffer is one store covering it: the product payload of the two blocks read.
-/
import proofs.«113968_j41326175322776_2_alg».proof.Proof.Gen.KernelIdeal.Launch
import proofs.«113968_j41326175322776_2_alg».proof.Proof.Gen.KernelIdeal.Skeleton
import proofs.«113968_j41326175322776_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one rectangle per buffer: the whole buffer. -/
abbrev r0_a : Rect S128x1024 := Rect.unit (s := S128x1024) ![0, 0] S128x1024.size inb_S128x1024_S128x1024_0_0
abbrev r0_b : Rect S1024x1024 := Rect.unit (s := S1024x1024) ![0, 0] S1024x1024.size inb_S1024x1024_S1024x1024_0_0

/-- The result window's staging buffer after the body: its one store, the product payload of the two blocks. -/
def out0_2 (x0 : Vec F S128x1024 .f32) (x1 : Vec F S1024x1024 .f32) : Vec F S128x1024 .f32 :=
  View.canon [⟨r0_a, k0_pay1 (View.ld x0 r0_a) (View.ld x1 r0_b)⟩]

/-- The store covers the buffer. -/
theorem cover0_2 (p0 : Vec F S128x1024 .f32) (y : S128x1024.Idx) :
    ∃ pc ∈ ([⟨r0_a, p0⟩] : List (View.Piece (Elt F) S128x1024 .f32)), y ∈ pc.1.set :=
  View.cover_of_tiled [⟨r0_a, p0⟩] S128x1024.size (by rfl) y

set_option maxHeartbeats 1000000 in
/-- The body on whole staging buffers: the inputs are read and kept, the output ends at `out0_2` of the inputs. -/
theorem sound_kernel0 (c : Dev nD) (E : Set ℕ) (i : grid0.Coords) (arg1 : Memref sig .tc .vmem S128x1024 .f32) (harg1 : arg1.IsWhole)
    (arg2 : Memref sig .tc .vmem S1024x1024 .f32) (harg2 : arg2.IsWhole) (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.FrameR1a.lean ====
/-
  The second kernel region (pairwise distances, exponentials, row sums): what its three control cases share.

  The grid is 8 × 8, point t = 8·i + j. Window 0 holds rows 32·i … 32·i+31 of the product (fetched when i changes),
  window 1 rows 32·j … 32·j+31 of the same array (fetched at every point), window 2 rows 32·i … 32·i+31 of the result,
  written back when j = 7 and idle elsewhere. A scratch accumulator is reset when j = 0, added to at every point and
  read into the result when j = 7. The two conditions are decided over the grid in closed form.
-/
import proofs.«113968_j41326175322776_2_alg».proof.Proof.Gen.KernelIdeal.Launch
import proofs.«113968_j41326175322776_2_alg».proof.Proof.Gen.KernelIdeal.Skeleton
import proofs.«113968_j41326175322776_2_alg».proof.Proof.Gen.KernelIdeal.Points
import proofs.«113968_j41326175322776_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- The first condition (the accumulator is reset): the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second condition (the result is stored): the second grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The staging and scratch buffers at a point -/

abbrev VO1_2 : View sig .tc .vmem S32x64 .f32 := (Memref.whole cc1_stg2_0 : Memref sig .tc .vmem S32x64 .f32).view
abbrev ms1_0 (t : Fin cfg1.N) : Memref sig .tc .vmem S32x64x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x64x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1_0 : Memref sig .tc .vmem S32x64 .f32 := Memref.whole cc1_scratch0
abbrev VS1_0 : View sig .tc .vmem S32x64 .f32 := scM1_0.view

/-- The class invariant of the second pipeline: the first pipeline's staging buffers at anything, the scratch
    accumulator at anything, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Fr

end
-- ==== Proof.FrameR1RunA.lean ====
/-
  The second kernel's body run whole on any staging buffers, in the case where the second coordinate is 0 (the accumulator is reset first; nothing is stored into the result's buffer).
  The pieces each buffer ends with are found by the run itself; the inner loop over the 32 rows of the second block
  is passed by its invariant (the carried partial sum before each trip).
-/
import proofs.«113968_j41326175322776_2_alg».proof.Proof.FrameR1a

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i)
    (x0 : Vec F S32x64x16 .f32) (x1 : Vec F S32x64x16 .f32) :
    Σ' (L2 : List (View.Piece (Elt F) S32x64 .f32)), { LS0 : List (View.Piece (Elt F) S32x64 .f32) //
      ∀ (xi2 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrameR1RunB.lean ====
/-
  The second kernel's body run whole on any staging buffers, in the case where the second coordinate is neither 0 nor 7 (the accumulator is added to; nothing is stored into the result's buffer).
  The pieces each buffer ends with are found by the run itself; the inner loop over the 32 rows of the second block
  is passed by its invariant (the carried partial sum before each trip).
-/
import proofs.«113968_j41326175322776_2_alg».proof.Proof.FrameR1a

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i)
    (x0 : Vec F S32x64x16 .f32) (x1 : Vec F S32x64x16 .f32) (xs0 : Vec F S32x64 .f32) :
    Σ' (L2 : List (View.Piece (Elt F) S32x64 .f32)), { LS0 : List (View.Piece (Elt F) S32x64 .f32) //
      ∀ (xi2 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.FrameR1RunC.lean ====
/-
  The second kernel's body run whole on any staging buffers, in the case where the second coordinate is 7 (the accumulator is added to and the result's buffer stored).
  The pieces each buffer ends with are found by the run itself; the inner loop over the 32 rows of the second block
  is passed by its invariant (the carried partial sum before each trip).
-/
import proofs.«113968_j41326175322776_2_alg».proof.Proof.FrameR1a

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i)
    (x0 : Vec F S32x64x16 .f32) (x1 : Vec F S32x64x16 .f32) (xs0 : Vec F S32x64 .f32) :
    Σ' (L2 : List (View.Piece (Elt F) S32x64 .f32)), { LS0 : List (View.Piece (Elt F) S32x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.FrameR1.lean ====
/-
  The second kernel region at any entry contents `V`: what the result window's buffer and the scratch accumulator hold
  after each of the 64 points (by recursion on the point: the accumulator is reset when the second coordinate is 0 and
  otherwise continues from the point before), the proof data (the two input windows share one array, each at half a
  share), and the body obligation by cases on the two conditions.
-/
import proofs.«113968_j41326175322776_2_alg».proof.Proof.FrameR1RunA
import proofs.«113968_j41326175322776_2_alg».proof.Proof.FrameR1RunB
import proofs.«113968_j41326175322776_2_alg».proof.Proof.FrameR1RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What case A leaves in the result window's buffer: its pieces read back over anything (no piece: a placeholder nothing consults, the window being idle there). -/
def out1_A_2 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S32x64x16 .f32) : Vec F S32x64 .f32 :=
  VO1_2.read (Elt F) (VO1_2.writes (Elt F) VO1_2.junk (kernelRun1_A c i arg2 harg2 arg3 harg3 arg4 harg4 arg5 harg5 hc0 hc1 x0 x1).1)

/-- Case A's pieces for the scratch accumulator cover it. -/
theorem scover1_A_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S32x64x16 .f32) (y : S32x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S32x64.size (by sl_kernel_rfl) y

/-- What case A leaves in the scratch accumulator. -/
def sout1_A_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S32x64x16 .f32) : Vec F S32x64 .f32 :=
  VS1_0.read (Elt F) (VS1_0.writes (Elt F) VS1_0.junk (kernelRun1_A c i arg2 harg2 arg3 harg3 arg4 harg4 arg5 harg5 hc0 hc1 x0 x1).2.1)

/-- What case B leaves in the result window's buffer: its pieces read back over anything (no piece: a placeholder nothing consults, the window being idle there). -/
def out1_B_2 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S32x64x16 .f32) (xs0 : Vec F S32x64 .f32) : Vec F S32x64 .f32 :=
  VO1_2.read (Elt F) (VO1_2.writes (Elt F) VO1_2.junk (kernelRun1_B c i arg2 harg2 arg3 harg3 arg4 harg4 arg5 harg5 hc0 hc1 x0 x1 xs0).1)

/-- Case B's pieces for the scratch accumulator cover it. -/
theorem scover1_B_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S32x64x16 .f32) (xs0 : Vec F S32x64 .f32) (y : S32x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S32x64.size (by sl_kernel_rfl) y

/-- What case B leaves in the scratch accumulator. -/
def sout1_B_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S32x64x16 .f32) (xs0 : Vec F S32x64 .f32) : Vec F S32x64 .f32 :=
  VS1_0.read (Elt F) (VS1_0.writes (Elt F) VS1_0.junk (kernelRun1_B c i arg2 harg2 arg3 harg3 arg4 harg4 arg5 harg5 hc0 hc1 x0 x1 xs0).2.1)

/-- What case C leaves in the result window's buffer: its pieces read back over anything. -/
def out1_C_2 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S32x64x16 .f32) (xs0 : Vec F S32x64 .f32) : Vec F S32x64 .f32 :=
  VO1_2.read (Elt F) (VO1_2.writes (Elt F) VO1_2.junk (kernelRun1_C c i arg2 harg2 arg3 harg3 arg4 harg4 arg5 harg5 hc0 hc1 x0 x1 xs0).1)

/-- Case C's pieces for the scratch accumulator cover it. -/
theorem scover1_C_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S32x64x16 .f32) (xs0 : Vec F S32x64 .f32) (y : S32x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S32x64.size (by sl_kernel_rfl) y

/-- What case C leaves in the scratch accumulator. -/
def sout1_C_0 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S32x64x16 .f32) (xs0 : Vec F S32x64 .f32) : Vec F S32x64 .f32 :=
  VS1_0.read (Elt F) (VS1_0.writes (Elt F) VS1_0.junk (kernelRun1_C c i arg2 harg2 arg3 harg3 arg4 harg4 arg5 harg5 hc0 hc1 x0 x1 xs0).2.1)

/-- Case C's pieces for the result window's buffer cover it. -/
theorem cover1_C_2 (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S32x64x16 .f32) (xs0 : Vec F S32x64 .f32) (y : S32x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S32x64.size (by sl_kernel_rfl) y

section Region1
variable (V : (c : Dev nD) → (b : Ref sig .tc) → Buf (Elt F) ((c : Thread nD τ).loc b))

/-! ## What the result window's buffer and the accumulator hold after each point -/

/-- After the body at position `n`: the result window's buffer and the scratch accumulator, the case chosen by the
    closed forms, the accumulator read at what position `n - 1` left. -/
def outsAt1 (c : Dev nD) : (n : ℕ) → n < cfg1.N → Vec F S32x64 .f32 × Vec F S32x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The class invariant with the scratch accumulator's part replaced by `S`. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

theorem PhiA1_with (c : Dev nD) : (Pipeline.ΦA spec1 c : sProp 𝕄) = PhiWith c (iprop(∃ d, owns (c : Thread nD τ) scM1_0 fullShare d)) := by
  rw [PhiA1_eq]; rfl

/-- The region invariant before position `n`: before the first point the class's; afterwards the accumulator at
    what the point before left in it. -/
def PhiS (c : Dev nD) : (n : ℕ) → n ≤ cfg1.N → sProp 𝕄
  | 0, _ => Pipeline.ΦA spec1 c
  | n + 1, hn => PhiWith c (owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c (owns (c : Thread nD τ) scM1_0 fullShare ((outsAt1 V c n hn).2)) := rfl

theorem PhiS_pos (c : Dev nD) (n : ℕ) (h : n ≤ cfg1.N) (hz : n ≠ 0) :
    PhiS V c n h = PhiWith c (owns (c : Thread nD τ) scM1_0 fullShare ((outsAt1 V c (n - 1) (by omega)).2)) := by
  cases n with
  | zero => exact absurd rfl hz
  | succ n => rfl

/-! ## The pipeline's proof data -/

/-- The proof data of the second pipeline on core `c`. The two input windows read one array, each at half a share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [leaves1_0, leaves1_1]
  have hN : t.val < 64 := lt_of_lt_of_eq t.isLt (show cfg1.N = 64 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A_0; (try dsimp only)
    have hΦ : (dat1 V c).Φ t.castSucc ⊢ PhiWith c (iprop(∃ d, owns (c : Thread nD τ) scM1_0 fullShare d)) := by
      rw [PhiS_castSucc V c t]
      by_cases hz : t.val = 0
      · rw [PhiS_zero V c _ _ hz, PhiA1_with]
      · rw [PhiS_pos V c _ _ hz]; unfold PhiWith
        iintro ⟨⟨Ha, Hb, Hc, Hd, He, HS0⟩, Hg⟩
        isplitr [Hg]
        · isplitl [Ha]; · iexact Ha
          isplitl [Hb]; · iexact Hb
          isplitl [Hc]; · iexact Hc
          isplitl [Hd]; · iexact Hd
          isplitl [He]; · iexact He
          iexists _; iexact HS0
        iexact Hg
    refine (sep_mono hΦ .rfl).trans ?_
    unfold PhiWith
    iintro ⟨⟨⟨Ha, Hb, Hc, Hd, He, HS0⟩, Hg⟩, Ho, ⟨%d0, H0⟩, ⟨%d1, H1⟩, ⟨%d2, H2⟩⟩
    iapply ((kernelRun1_A c (grid1.coords t) _ _ _ _ _ _ _ _ ((hcond1_0 t).mpr h0) (fun h => h1 ((hcond1_1 t).mp h)) (iblk1 V c 0 t) (iblk1 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [Ha Hb Hc Hd He HS0 Hg]
    · isplitr [Hg]
      · isplitl [Ha]; · iexact Ha
        isplitl [Hb]; · iexact Hb
        isplitl [Hc]; · iexact Hc
        isplitl [Hd]; · iexact Hd
        isplitl [He]; · iexact He
        unfold owns; iexists _; isplitr
        swap; · iexact HS0
        ipureintro; exact View.read_writes_of_cover _ _ _ _ _ (scover1_A_0 c _ _ _ _ _ _ _ _ _ _ _ _ _)
      iexact Hg
    isplitl [Ho]; · iexact Ho
    isplitl [H0]; · iexact H0
    isplitl [H1]; · iexact H1
    iexists _; iexact H2
  · have hz : t.val ≠ 0 := by omega
    rw [PhiS_castSucc V c t, PhiS_pos V c _ _ hz]
    unfold PhiWith
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C_0; (try dsimp only)
      iintro ⟨⟨⟨Ha, Hb, Hc, Hd, He, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      iintro ⟨⟨⟨Ha, Hb, Hc, Hd, He, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B_0 c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ hne, PhiA1_with]
  unfold PhiWith
  iintro ⟨⟨Ha, Hb, Hc, Hd, He, HS0⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS0
  iexact Hg

end Region1

end Cert.KernelIdeal.Fr

end
-- ==== Proof.FrameR1x.lean ====
/-
  Entering and leaving the second kernel region when its two input windows read ONE array: on entry the array, held
  whole, is split into two half shares, one per window; on exit the two halves — each still at the entry contents,
  an input window's array never changing — are joined again, and the result's array is taken at what the write-backs left.
-/
import proofs.«113968_j41326175322776_2_alg».proof.Proof.FrameR1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- A core's unscoped buffers: the product array, the result array, and the rest. -/
theorem ub1_eq (c : Dev nD) (V : (b : Ref sig .tc) → Buf (Elt F) ((c : Thread nD τ).loc b)) :
    (unscopedBufs c V : sProp 𝕄) = iprop(((((c : Thread nD τ).loc main_v2) ↦{fullShare} V main_v2) ∗ (((c : Thread nD τ).loc main_v3) ↦{fullShare} V main_v3)) ∗ Pipeline.unscopedRest spec1 c V) := by
  rw [Pipeline.unscopedBufs_split₀ cfgs (1 : Fin 2) winFacts₀1.arr_unscoped c V]
  unfold Pipeline.arrBufs
  rw [bigSep_eq_bigSepL_of_eq [main_v2, main_v3] (by decide) (by decide)]
  rfl

/-- The second pipeline's arrays, window by window: the product array at the two half shares, the result array whole. -/
theorem arrays1_eq (c : Dev nD) (G : (w : Fin cfg1.W) → Buf (Elt F) ((cfg1.win w).arr.view.loc (c : Thread nD τ))) :
    ((dat1 V c).arrays G : sProp 𝕄) = iprop((((c : Thread nD τ).loc main_v2) ↦{fullShare.left} G 0) ∗ (((c : Thread nD τ).loc main_v2) ↦{fullShare.right} G 1) ∗ (((c : Thread nD τ).loc main_v3) ↦{fullShare} G 2)) := by
  unfold Dat.arrays
  rw [bigSep_W1, (arr_whole1 0).set_eq_univ, (arr_whole1 2).set_eq_univ]
  rfl

theorem entry1 (c : Dev nD) :
    (unscopedBufs c (V c) : sProp 𝕄) ⊢ iprop((dat1 V c).arrays ((dat1 V c).arrAt · 0) ∗ Pipeline.unscopedRest spec1 c (V c)) := by
  rw [ub1_eq, arrays1_eq]
  iintro ⟨⟨H2, H3⟩, Hr⟩
  ihave H2 := (pointsTo_share (PosShare.mem_left_op_right fullShare)).1 $$ H2
  icases H2 with ⟨H2a, H2b⟩
  isplitr [Hr]
  · isplitl [H2a]; · iexact H2a
    isplitl [H2b]; · iexact H2b
    iexact H3
  iexact Hr

theorem exit1 (c : Dev nD) (V' : (b : Ref sig .tc) → Buf (Elt F) ((c : Thread nD τ).loc b))
    (h2 : V' main_v2 = V c main_v2) (h3 : V' main_v3 = (dat1 V c).arrAt 2 cfg1.N)
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  have hr : (Pipeline.unscopedRest spec1 c V' : sProp 𝕄) = Pipeline.unscopedRest spec1 c (V c) := by
    unfold Pipeline.unscopedRest
    exact bigSep_congr fun b hb => by rw [hrest b (Finset.mem_sdiff.mp hb).2]
  rw [ub1_eq, arrays1_eq, hr, h2, h3]
  rw [show (dat1 V c).arrAt 0 cfg1.N = V c main_v2 from ((dat1 V c).arrAt_in 0 rfl _).trans (A_eq1 V c 0),
    show (dat1 V c).arrAt 1 cfg1.N = V c main_v2 from ((dat1 V c).arrAt_in 1 rfl _).trans (A_eq1 V c 1)]
  iintro ⟨⟨H2a, H2b, H3⟩, Hr⟩
  isplitr [Hr]
  · isplitl [H2a H2b]
    · iapply (pointsTo_share (PosShare.mem_left_op_right fullShare)).2
      isplitl [H2a] <;> iassumption
    iexact H3
  iexact Hr

end Region1

end Cert.KernelIdeal.Fr

end
-- ==== Proof.FrameRun.lean ====
/-
  The whole run: a reshape on the host, the first kernel region, a reshape on the host, the second kernel region.

  The contents of the core's buffers at each boundary are a fold from the launch memory: a host stretch applies its
  operations; the first region leaves its result array at what its write-backs give; the second leaves the final
  result array at what ITS write-backs give and every other buffer as it found it. Every weakly fair execution
  terminates, faultless, with every unscoped buffer at the last boundary's contents — in particular the two argument
  arrays as launched (no stretch and no region writes them) and the result array at the second pipeline's write-backs.
-/
import proofs.«113968_j41326175322776_2_alg».proof.Proof.FrameR0
import proofs.«113968_j41326175322776_2_alg».proof.Proof.FrameR1x
import proofs.«113968_j41326175322776_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: the result array at what the pipeline leaves, every other buffer as entered. -/
def W4 (c : Dev nD) : Valuation τ sig (Elt F) :=
  Function.update (W3 m c) main_v3 ((dat1 (V3 m) c).arrAt 2 cfg1.N)
theorem W4_v3 (c : Dev nD) : W4 m c main_v3 = (dat1 (V3 m) c).arrAt 2 cfg1.N := by
  unfold W4; exact Function.update_self ..
theorem W4_of_ne (c : Dev nD) (b : Ref sig .tc) (hb : b ≠ main_v3) : W4 m c b = W3 m c b := by
  unfold W4
  exact Function.update_of_ne (StableHlo.devRef_ne_of_ne hb : (Proc.devRef .tc b : DevRef τ sig) ≠ Proc.devRef .tc main_v3) _ _
abbrev V4 : (c : Dev nD) → (b : Ref sig .tc) → Buf (Elt F) ((c : Thread nD τ).loc b) := fun c b => W4 m c b

/-- No stretch and no region writes an argument: the last boundary's contents at it are the launch's. -/
theorem W4_main_arg0 (c : Dev nD) : W4 m c main_arg0 = m ((c : Thread nD τ).loc main_arg0) :=
  calc W4 m c main_arg0
    _ = W3 m c main_arg0 := W4_of_ne m c main_arg0 (by decide)
    _ = W2 m c main_arg0 := StableHlo.after_of_writes_sub hostOps1 _ hostOps1_writes (by decide : main_arg0 ∉ hostOps1_W)
    _ = W1 m c main_arg0 := (W2_arr m c 0).trans (((dat0 (V1 m) c).arrAt_in 0 rfl _).trans (A_eq0 (V1 m) c 0))
    _ = W0 m c main_arg0 := StableHlo.after_of_writes_sub hostOps0 _ hostOps0_writes (by decide : main_arg0 ∉ hostOps0_W)
    _ = m ((c : Thread nD τ).loc main_arg0) := rfl
theorem W4_main_arg1 (c : Dev nD) : W4 m c main_arg1 = m ((c : Thread nD τ).loc main_arg1) :=
  calc W4 m c main_arg1
    _ = W3 m c main_arg1 := W4_of_ne m c main_arg1 (by decide)
    _ = W2 m c main_arg1 := StableHlo.after_of_writes_sub hostOps1 _ hostOps1_writes (by decide : main_arg1 ∉ hostOps1_W)
    _ = W1 m c main_arg1 := W2_of_ne m c main_arg1 (by decide)
    _ = W0 m c main_arg1 := StableHlo.after_of_writes_sub hostOps0 _ hostOps0_writes (by decide : main_arg1 ∉ hostOps0_W)
    _ = m ((c : Thread nD τ).loc main_arg1) := rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := exit1 (V3 m) c (V4 m c) (W4_of_ne m c main_v2 (by decide)) (W4_v3 m c)
      (fun b hb => W4_of_ne m c b fun e => hb (Finset.mem_image.mpr ⟨2, Finset.mem_univ _, e.symm⟩))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: every weakly fair execution of @main terminates, faultless, and every final memory holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_main_arg0 m c),
    (h c _ (mem_uc main_arg1 (by decide))).trans (W4_main_arg1 m c)⟩) (run_all m ρ)

/-- THE RUN, read at the result and the arguments: the result array ends at what the second pipeline's write-backs
    leave, the argument arrays as launched. -/
theorem run_result : θ_run defs (onTc (τ := τ) (main (F := F))) ⟨m, fun _ => 0, ρ⟩ (fun r => ∀ c : Dev nD,
      r.2.mem ((c.tc : Thread nD τ).loc main_v3) = (dat1 (V3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_v3 (by decide))).trans (W4_v3 m c),
    (h c _ (mem_uc main_arg0 (by decide))).trans (W4_main_arg0 m c),
    (h c _ (mem_uc main_arg1 (by decide))).trans (W4_main_arg1 m c)⟩) (run_all m ρ)

end Cert.KernelIdeal.Fr

end
-- ==== Proof.Spec.lean ====
/-
  The mathematics both programs compute, stated once over the extended reals.

  From x : 256 × 1024 and T : 1024 × 64 × 16 form the products
      P i b c = Σ_a x(i,a) · T(a,b,c),
  the L1 distances between rows i and j inside group b,
      d i j b = Σ_c |P i b c − P j b c|            (|y| written max y (−y)),
  the weights  w i j b = exp (−d i j b),  and the result
      r i b = (Σ_j w i j b) − (1 if i = 0, else w i 255 b).
-/
import Idealize.ShloMosaic.PureOps.Ideal
import Idealize.ShloMosaic.Lib.ValueIdx

noncomputable section

namespace Cert.Spec

open Idealize.ShloMosaic Idealize.ShloMosaic.ValueIdx

/-- The shapes of the two arguments and of the result. -/
abbrev SX : Shape := ⟨2, ![256, 1024]⟩
abbrev ST : Shape := ⟨3, ![1024, 64, 16]⟩
abbrev SO : Shape := ⟨2, ![256, 64]⟩

/-- Entry (i, b, c) of the product of `x` with `T` contracted over the axis of extent 1024. -/
def prodAt (x : SX.Idx → EReal) (T : ST.Idx → EReal) (i : Fin 256) (b : Fin 64) (c : Fin 16) : EReal :=
  ∑ a : Fin 1024, x (ix2 i a) * T (ix3 a b c)

/-- The L1 distance between rows `i` and `j` of `P` inside group `b`. -/
def dist (P : Fin 256 → Fin 64 → Fin 16 → EReal) (i j : Fin 256) (b : Fin 64) : EReal :=
  ∑ c : Fin 16, max (P i b c - P j b c) (-(P i b c - P j b c))

/-- The weight of the pair (i, j) in group `b`: the exponential of minus their distance. -/
def weight (P : Fin 256 → Fin 64 → Fin 16 → EReal) (i j : Fin 256) (b : Fin 64) : EReal :=
  Ideal.exp (-(dist P i j b))

/-- The value 1, as the binary32 pattern both programs spell it with. -/
def one : EReal := Ideal.ofBits .f32 0x3F800000#32

/-- What is subtracted from row `i`'s sum: 1 for the first row, else the weight against the last row. -/
def adjust (P : Fin 256 → Fin 64 → Fin 16 → EReal) (i : Fin 256) (b : Fin 64) : EReal :=
  if i.val = 0 then one else weight P i ⟨255, by norm_num⟩ b

/-- Entry (i, b) of the result. -/
def resAt (x : SX.Idx → EReal) (T : ST.Idx → EReal) (i : Fin 256) (b : Fin 64) : EReal :=
  (∑ j : Fin 256, weight (prodAt x T) i j b) - adjust (prodAt x T) i b

/-- The result as an array. -/
def result (x : SX.Idx → EReal) (T : ST.Idx → EReal) : SO.Idx → EReal :=
  fun p => resAt x T (p 0) (p 1)

theorem result_ix2 (x : SX.Idx → EReal) (T : ST.Idx → EReal) (i : Fin 256) (b : Fin 64) :
    result x T (ix2 i b) = resAt x T i b := rfl

end Cert.Spec

end
-- ==== Proof.RefValue.lean ====
/-
  The reference program's result, read index by index at the ideal instance, is the shared
  specification `Cert.Spec.result` of the two argument arrays.

  The program forms the product of `x` with `T` flattened to 1024 × 1024 (column 16·b + c is the
  pair (b, c)), reads it back as a 256 × 64 × 16 array `P`, broadcasts `P` along a new row axis and
  along a new column axis, subtracts, takes absolute values, sums over the last axis (the distances
  `d i j b`), negates, exponentiates (the weights `w i j b`), sums over `j`, and subtracts either
  the literal one (row 0) or the weight against the last row (every other row). Each stage is read
  at an index with the generated `val_…_apply` lemmas; what is proved here is that the composed
  index maps are the coordinates the specification names.
-/
import proofs.«113968_j41326175322776_2_alg».proof.Defs
import proofs.«113968_j41326175322776_2_alg».proof.Proof.Gen.ReferenceIdeal.Read
import proofs.«113968_j41326175322776_2_alg».proof.Proof.Spec

noncomputable section

open Idealize.ShloMosaic Idealize.SL.Sem

namespace Cert.ReferenceIdeal.RefValue

open Cert.ReferenceIdeal Cert.ReferenceIdeal.Gen Cert.ReferenceIdeal.Read Idealize.ShloMosaic.ValueIdx

variable (x : FVec Ideal S256x1024 .f32) (T : FVec Ideal S1024x64x16 .f32)

/-! ## The two sums' initial values are zero -/

/-- The first sum starts from the zero word, which denotes the real 0. -/
theorem init_dist (p : S_.Idx) : val_main_cst (F := Ideal) p = 0 := by
  rw [val_main_cst_apply]; exact Ideal.ofBits_zero_f32

/-- The second sum starts from the zero word too. -/
theorem init_rowsum (p : S_.Idx) : val_main_cst_0 (F := Ideal) p = 0 := by
  rw [val_main_cst_0_apply]; exact Ideal.ofBits_zero_f32

/-! ## The products -/

/-- Entry (i, b, c) of the product read back as 256 × 64 × 16. Row-major, (i, b, c) is entry
    (i, 16·b + c) of the 256 × 1024 product, whose term `a` multiplies `x (i, a)` with entry
    (a, 16·b + c) of the flattened `T`, which is `T (a, b, c)`. -/
theorem prod_eq (i : Fin 256) (b : Fin 64) (c : Fin 16) :
    val_main_v2 (F := Ideal) x T (ix3 i b c) = Cert.Spec.prodAt x T i b c := by
  rw [val_main_v2_apply, val_main_v1_apply]
  unfold Cert.Spec.prodAt
  refine Finset.sum_congr rfl fun a _ => ?_
  rw [val_main_v0_apply]
  have hi := i.isLt; have hb := b.isLt; have hc := c.isLt; have ha := a.isLt
  have e1 : lidx_main_v1 (idx_main_v2 (ix3 i b c)) a = ix2 i a := funext fun d => Fin.ext (by
    match d with
    | ⟨0, _⟩ => show ((i.val * 64 + b.val) * 16 + c.val) / 1024 = i.val; omega
    | ⟨1, _⟩ => rfl)
  have e2 : idx_main_v0 (ridx_main_v1 (idx_main_v2 (ix3 i b c)) a) = ix3 a b c := funext fun d => Fin.ext (by
    match d with
    | ⟨0, _⟩ => show (a.val * 1024 + ((i.val * 64 + b.val) * 16 + c.val) % 1024) / 1024 = a.val; omega
    | ⟨1, _⟩ => show (a.val * 1024 + ((i.val * 64 + b.val) * 16 + c.val) % 1024) / 16 % 64 = b.val; omega
    | ⟨2, _⟩ => show (a.val * 1024 + ((i.val * 64 + b.val) * 16 + c.val) % 1024) % 16 = c.val; omega)
  rw [e1, e2]

/-! ## The distances and the weights -/

/-- Entry (i, j, b) of the first sum: the two broadcasts put `P i b c` and `P j b c` at
    (i, j, b, c), and the sum over `c` of the absolute differences is the L1 distance. -/
theorem dist_eq (i j : Fin 256) (b : Fin 64) :
    val_main_v9 (F := Ideal) x T (ix3 i j b) = Cert.Spec.dist (Cert.Spec.prodAt x T) i j b := by
  rw [val_main_v9_apply, init_dist, zero_add]
  unfold Cert.Spec.dist
  refine Finset.sum_congr rfl fun c _ => ?_
  rw [val_main_v8_apply, val_main_v7_apply, val_main_v5_apply, val_main_v3_apply, val_main_v6_apply,
    val_main_v4_apply]
  have e1 : idx_main_v3 (idx_main_v5 (idx_main_v9 (ix3 i j b) c)) = ix3 i b c := funext fun d => Fin.ext (by
    match d with | ⟨0, _⟩ => rfl | ⟨1, _⟩ => rfl | ⟨2, _⟩ => rfl)
  have e2 : idx_main_v4 (idx_main_v6 (idx_main_v9 (ix3 i j b) c)) = ix3 j b c := funext fun d => Fin.ext (by
    match d with | ⟨0, _⟩ => rfl | ⟨1, _⟩ => rfl | ⟨2, _⟩ => rfl)
  rw [e1, e2, prod_eq, prod_eq]
  rfl

/-- Entry (i, j, b) after the negation and the exponential: the weight of the pair. -/
theorem weight_eq (i j : Fin 256) (b : Fin 64) :
    val_main_v11 (F := Ideal) x T (ix3 i j b) = Cert.Spec.weight (Cert.Spec.prodAt x T) i j b := by
  rw [val_main_v11_apply, val_main_v10_apply, dist_eq]
  rfl

/-- Entry (i, b) of the second sum: the weights of row `i` against every row `j`. -/
theorem rowsum_eq (i : Fin 256) (b : Fin 64) :
    val_main_v12 (F := Ideal) x T (ix2 i b) = ∑ j : Fin 256, Cert.Spec.weight (Cert.Spec.prodAt x T) i j b := by
  rw [val_main_v12_apply, init_rowsum, zero_add]
  refine Finset.sum_congr rfl fun j _ => ?_
  have e : idx_main_v12 (ix2 i b) j = ix3 i j b := funext fun d => Fin.ext (by
    match d with | ⟨0, _⟩ => rfl | ⟨1, _⟩ => rfl | ⟨2, _⟩ => rfl)
  rw [e, weight_eq]

/-! ## The subtracted term -/

/-- The row test: a row number below 256, as a 32-bit word, is the zero word exactly for row 0. -/
theorem row_test {α : Type} (i : Fin 256) (A B : α) :
    Scalar.select (IntOp.cmpi .eq (BitVec.ofNat 32 i.val) 0#32) A B = if i.val = 0 then A else B := by
  by_cases h : i.val = 0
  · rw [h, if_pos rfl]; rfl
  · have hne : ¬ BitVec.ofNat 32 i.val = 0#32 := by
      intro he
      have h2 := congrArg BitVec.toNat he
      rw [BitVec.toNat_ofNat] at h2
      have hi := i.isLt
      have h3 : i.val % 2 ^ 32 = i.val := Nat.mod_eq_of_lt (by omega)
      rw [h3] at h2
      exact h h2
    have hc : IntOp.cmpi .eq (BitVec.ofNat 32 i.val) 0#32 = 0#1 := by
      unfold IntOp.cmpi
      simp only [beq_eq_false_iff_ne.mpr hne]
      rfl
    rw [hc, if_neg h]; exact select_zero A B

/-- Entry (i, b) of the selected array: the literal one on row 0, else the weight of row `i`
    against the last row (the slice keeps column 255 of the weights' second axis). -/
theorem adjust_eq (i : Fin 256) (b : Fin 64) :
    val_main_v19 (F := Ideal) x T (ix2 i b) = Cert.Spec.adjust (Cert.Spec.prodAt x T) i b := by
  rw [val_main_v19_apply, val_main_call0_v0_apply, val_main_v16_apply, val_main_v15_apply, val_main_v13_apply,
    val_main_v14_apply, val_main_c_apply, val_main_call0_v1_apply, val_main_cst_1_apply, val_main_v18_apply,
    val_main_v17_apply]
  have e : idx_main_v17 (idx_main_v18 (ix2 i b)) = ix3 i ⟨255, by norm_num⟩ b := funext fun d => Fin.ext (by
    have hi := i.isLt; have hb := b.isLt
    match d with
    | ⟨0, _⟩ => show (i.val * 64 + b.val) / 64 = i.val; omega
    | ⟨1, _⟩ => rfl
    | ⟨2, _⟩ => show (i.val * 64 + b.val) % 64 = b.val; omega)
  rw [e, weight_eq]
  show Scalar.select (IntOp.cmpi .eq (BitVec.ofNat 32 i.val) 0#32) _ _ = _
  rw [row_test]
  rfl

/-! ## The result -/

/-- The reference's last value is the specification's result, as functions of the index. -/
theorem val_eq : val_main_v20 (F := Ideal) x T = Cert.Spec.result x T := by
  funext p
  obtain ⟨i, b, rfl⟩ : ∃ (i : Fin 256) (b : Fin 64), p = ix2 i b := ⟨p 0, p 1, eq_ix2 p⟩
  rw [val_main_v20_apply, rowsum_eq, adjust_eq, Cert.Spec.result_ix2]
  rfl

/-! ## The run's result term -/

/-- The result term of the reference's run (the composed operations of the two argument arrays,
    as the generated run states it) is the specification's result. -/
theorem result_eq (x : FVec Ideal S256x1024 .f32) (T : FVec Ideal S1024x64x16 .f32) :
    subf (Host.reduceAdd (Host.exp (Host.negf (Host.reduceAdd (Host.absf (subf (broadcastInDim S256x256x64x16 ![0, 1, 2, 3] bcast_S256x1x64x16_S256x256x64x16_0_1_2_3 (broadcastInDim S256x1x64x16 ![0, 2, 3] bcast_S256x64x16_S256x1x64x16_0_2_3 (shapeCast _ (Host.dotGeneral dot_S256x1024_S1024x1024_S256x1024_1_0_0_1_n_n none x (shapeCast _ T shapeCasts_S1024x64x16_S1024x1024)) shapeCasts_S256x1024_S256x64x16))) (broadcastInDim S256x256x64x16 ![0, 1, 2, 3] bcast_S1x256x64x16_S256x256x64x16_0_1_2_3 (broadcastInDim S1x256x64x16 ![1, 2, 3] bcast_S256x64x16_S1x256x64x16_1_2_3 (shapeCast _ (Host.dotGeneral dot_S256x1024_S1024x1024_S256x1024_1_0_0_1_n_n none x (shapeCast _ T shapeCasts_S1024x64x16_S1024x1024)) shapeCasts_S256x1024_S256x64x16))))) (constant S_ .f32 0x00000000#32) reducesTo_S256x256x64x16_S256x256x64_d3 h_S_))) (constant S_ .f32 0x00000000#32) reducesTo_S256x256x64_S256x64_d1 h_S_) (select (broadcastInDim S256x64 ![0, 1] bcast_S256x1_S256x64_0_1 (broadcastInDim S256x1 ![0] bcast_S256_S256x1_0 (cmpi .eq (iotaInDim S256 32 0) (broadcastInDim S256 ![] bcast_S_S256 (constantI S_ 32 0#32))))) (broadcastInDim S256x64 ![] bcast_S_S256x64 (constant S_ .f32 0x3F800000#32)) (shapeCast _ (extractStridedSlice S256x1x64 ![0, 255, 0] (Host.exp (Host.negf (Host.reduceAdd (Host.absf (subf (broadcastInDim S256x256x64x16 ![0, 1, 2, 3] bcast_S256x1x64x16_S256x256x64x16_0_1_2_3 (broadcastInDim S256x1x64x16 ![0, 2, 3] bcast_S256x64x16_S256x1x64x16_0_2_3 (shapeCast _ (Host.dotGeneral dot_S256x1024_S1024x1024_S256x1024_1_0_0_1_n_n none x (shapeCast _ T shapeCasts_S1024x64x16_S1024x1024)) shapeCasts_S256x1024_S256x64x16))) (broadcastInDim S256x256x64x16 ![0, 1, 2, 3] bcast_S1x256x64x16_S256x256x64x16_0_1_2_3 (broadcastInDim S1x256x64x16 ![1, 2, 3] bcast_S256x64x16_S1x256x64x16_1_2_3 (shapeCast _ (Host.dotGeneral dot_S256x1024_S1024x1024_S256x1024_1_0_0_1_n_n none x (shapeCast _ T shapeCasts_S1024x64x16_S1024x1024)) shapeCasts_S256x1024_S256x64x16))))) (constant S_ .f32 0x00000000#32) reducesTo_S256x256x64x16_S256x256x64_d3 h_S_))) slices_S256x256x64_S256x1x64_0_255_0) shapeCasts_S256x1x64_S256x64))
      = Cert.Spec.result x T :=
  (val_main_v20_eq (F := Ideal) x T).trans (val_eq x T)

/-- The reference's run with its result named by the specification: every weakly fair execution
    ends with the result array at `Cert.Spec.result` of the argument arrays, which are unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
          = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _), (h c).2⟩)
    (Cert.ReferenceIdeal.Value.run (F := Ideal) m ρ)

/-- The reference runs to the end, faults nowhere and leaves its two arguments unchanged: its run
    with the result dropped. -/
theorem frame [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.PayDist.lean ====
/-
  The arithmetic of the distance kernel's pure terms, read at one index over the extended reals.

  One trip of the inner loop adds, to the running sum at row r and group b, the weight
  exp (0 − Σ_c |x(r,b,c) − y(0,b,c)|) of row r against the one row the trip loaded; the final
  store subtracts from the accumulated sum either 1 (for the very first row of the array) or the
  weight against the last row.  Absolute value is max y (−y) on the extended reals.
-/
import proofs.«113968_j41326175322776_2_alg».proof.Proof.Gen.KernelIdeal.Skeleton
import proofs.«113968_j41326175322776_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

variable [Cert.KernelIdeal.Facts]

/-- The zero the scratch sum is reset to at the first step of the inner grid axis. -/
theorem pay1z_apply (j : S32x64.Idx) : k1_pay1 (F := Ideal) j = 0 := by
  unfold k1_pay1
  rw [shapeCast_self]
  exact Ideal.ofBits_zero_f32

/-- The zero the inner loop's running sum starts from. -/
theorem pay3z_apply (j : S32x64.Idx) : k1_pay3 (F := Ideal) j = 0 := by
  unfold k1_pay3
  exact Ideal.ofBits_zero_f32

/-- After the inner loop the scratch sum gains the loop's result, entry by entry. -/
theorem pay5_apply (v7 : FVec Ideal S32x64 .f32) (v8 : Vec Ideal S32x64 .f32) (j : S32x64.Idx) :
    k1_pay5 (F := Ideal) v7 v8 j = v8 j + v7 j := by
  unfold k1_pay5
  rw [shapeCast_self]
  rfl

/-! ## Pointwise readings the library leaves to the caller -/

/-- The exponential of a vector, at an index, is the extended reals' exponential of the entry. -/
theorem exp_apply {s : Shape} {φ : FTy} (a : FVec Ideal s φ) (i : s.Idx) : exp a i = Ideal.exp (a i) := rfl

/-- The absolute value of a vector, at an index: on the extended reals |y| is max y (−y). -/
theorem absf_apply {s : Shape} {φ : FTy} (a : FVec Ideal s φ) (i : s.Idx) : absf a i = max (a i) (-(a i)) := rfl

/-- The block of 32 rows, cast to its own shape, is itself. -/
theorem pay2_eq (v3 : Vec Ideal S32x64x16 .f32) : k1_pay2 (F := Ideal) v3 = v3 := by
  unfold k1_pay2
  exact shapeCast_self _ _

/-- One loaded row [1,64,16], viewed [64,16] and back, then repeated over 32 rows: entry (r, b, c) is the row's
    entry (0, b, c). -/
theorem rowBroadcast_apply (w : Vec Ideal S1x64x16 .f32) (r : Fin 32) (b : Fin 64) (c : Fin 16) :
    broadcastTo S32x64x16
        (shapeCast S1x64x16 (shapeCast S64x16 w shapeCasts_S1x64x16_S64x16) shapeCasts_S64x16_S1x64x16)
        broadcasts_S1x64x16_S32x64x16 (ix3 r b c)
      = w (ix3 0 b c) := by
  rw [shapeCast_shapeCast]
  exact broadcastTo_apply w _ (ix3 r b c) (ix3 0 b c) fun a =>
    match a with
    | ⟨0, _⟩ => rfl
    | ⟨1, _⟩ => rfl
    | ⟨2, _⟩ => rfl

/-- The absolute difference between the block and the repeated row, at (r, b, c). -/
theorem absDiff_apply (v3 : Vec Ideal S32x64x16 .f32) (w : Vec Ideal S1x64x16 .f32) (r : Fin 32) (b : Fin 64) (c : Fin 16) :
    absf (subf (k1_pay2 (F := Ideal) v3)
        (broadcastTo S32x64x16
          (shapeCast S1x64x16 (shapeCast S64x16 w shapeCasts_S1x64x16_S64x16) shapeCasts_S64x16_S1x64x16)
          broadcasts_S1x64x16_S32x64x16)) (ix3 r b c)
      = max (v3 (ix3 r b c) - w (ix3 0 b c)) (-(v3 (ix3 r b c) - w (ix3 0 b c))) := by
  rw [absf_apply, subf_apply, rowBroadcast_apply, pay2_eq]

/-- A sum over the last axis of a [32,64,16] vector, at (r, b), is the sum over c of the entries (r, b, c). -/
theorem laneSum_apply (src : FVec Ideal S32x64x16 .f32) (h : S32x64x16.Reduces [2] S32x64) (hφ : FKind.Formats .f32)
    (hacc : (0x00000000#32 : BitVec 32) = FKind.add.neutral .f32 hφ) (r : Fin 32) (b : Fin 64) :
    multiReduction .add [2] S32x64 src 0x00000000#32 h hφ hacc (ix2 r b) = ∑ c : Fin 16, src (ix3 r b c) := by
  refine (Ideal.multiReduction_add_single src _ h hφ hacc (ix2 r b)).trans ?_
  refine Finset.sum_congr rfl fun c _ => congrArg src ?_
  funext d
  match d with
  | ⟨0, _⟩ => rfl
  | ⟨1, _⟩ => rfl
  | ⟨2, _⟩ => rfl

/-- The weight of row r of the block against the repeated row, in group b: the exponential of zero minus the
    sum over c of the absolute differences. -/
theorem weightTerm_apply (v3 : Vec Ideal S32x64x16 .f32) (w : Vec Ideal S1x64x16 .f32)
    (h : S32x64x16.Reduces [2] S32x64) (hφ : FKind.Formats .f32)
    (hacc : (0x00000000#32 : BitVec 32) = FKind.add.neutral .f32 hφ) (r : Fin 32) (b : Fin 64) :
    exp (subf (broadcast S32x64 (FloatOps.ofBits (F := Ideal) .f32 0x00000000#32))
        (multiReduction .add [2] S32x64
          (absf (subf (k1_pay2 (F := Ideal) v3)
            (broadcastTo S32x64x16
              (shapeCast S1x64x16 (shapeCast S64x16 w shapeCasts_S1x64x16_S64x16) shapeCasts_S64x16_S1x64x16)
              broadcasts_S1x64x16_S32x64x16)))
          0x00000000#32 h hφ hacc)) (ix2 r b)
      = Ideal.exp (0 - ∑ c : Fin 16, max (v3 (ix3 r b c) - w (ix3 0 b c)) (-(v3 (ix3 r b c) - w (ix3 0 b c)))) := by
  rw [exp_apply, subf_apply, broadcast_apply, laneSum_apply]
  refine congrArg Ideal.exp ?_
  refine congrArg₂ (· - ·) Ideal.ofBits_zero_f32 ?_
  exact Finset.sum_congr rfl fun c _ => absDiff_apply v3 w r b c

/-! ## One trip of the inner loop -/

/-- One trip adds to the running sum, at (r, b), the weight of row r against the row the trip loaded. -/
theorem pay4_apply (v3 : Vec Ideal S32x64x16 .f32) (acc : FVec Ideal S32x64 .f32) (v17 : Vec Ideal S1x64x16 .f32)
    (r : Fin 32) (b : Fin 64) :
    k1_pay4 (F := Ideal) v3 acc v17 (ix2 r b)
      = acc (ix2 r b)
        + Ideal.exp (0 - ∑ c : Fin 16, max (v3 (ix3 r b c) - v17 (ix3 0 b c)) (-(v3 (ix3 r b c) - v17 (ix3 0 b c)))) := by
  unfold k1_pay4
  dsimp only
  rw [addf_apply]
  exact congrArg (acc (ix2 r b) + ·) (weightTerm_apply v3 v17 _ _ _ r b)

end Cert.KernelIdeal.Pay

end
-- ==== Proof.PayStore.lean ====
/-
  The final store of the distance kernel, read at one index over the extended reals.

  At the last step of the inner grid axis the kernel subtracts, from the accumulated sum of weights at row r
  and group b, a correction: 1 when the row is the very first of the whole array (block g, row r with
  g · 32 + r = 0), and otherwise the weight of row r against the last row the block loaded.  Which of the two
  is decided on 32-bit words: the row's number inside the block plus 32 times the block's number, compared
  with zero; below 2^32 nothing wraps, so the word is zero exactly when the number is.
-/
import proofs.«113968_j41326175322776_2_alg».proof.Proof.PayDist

noncomputable section

namespace Cert.KernelIdeal.Pay

open Idealize.ShloMosaic Idealize.ShloMosaic.ValueIdx Cert.KernelIdeal Cert.KernelIdeal.Gen

variable [Cert.KernelIdeal.Facts]

/-- Row r of block g is the array's first row exactly when the 32-bit word r + g · 32 is zero: for g below 8
    the sum stays below 2^32. -/
theorem firstRow_word (g : Nat) (hg : g < 8) (r : Fin 32) :
    IntOp.addi (BitVec.ofNat 32 r.val) (Scalar.muli (BitVec.ofNat 32 g) 32#32) = BitVec.ofNat 32 (g * 32 + r.val) := by
  have hr := r.isLt
  apply BitVec.eq_of_toNat_eq
  simp only [IntOp.addi, Scalar.muli, IntOp.muli, BitVec.toNat_add, BitVec.toNat_mul, BitVec.toNat_ofNat]
  omega

/-- A select on the comparison of that word with zero is the choice on the number. -/
theorem firstRow_select {α : Type} (g : Nat) (hg : g < 8) (r : Fin 32) (A B : α) :
    Scalar.select
        (IntOp.cmpi .eq (IntOp.addi (BitVec.ofNat 32 r.val) (Scalar.muli (BitVec.ofNat 32 g) 32#32)) 0#32) A B
      = if g * 32 + r.val = 0 then A else B := by
  have hr := r.isLt
  rw [firstRow_word g hg r]
  by_cases h : g * 32 + r.val = 0
  · rw [if_pos h, h]
    rfl
  · rw [if_neg h]
    have hne : BitVec.ofNat 32 (g * 32 + r.val) ≠ 0#32 := by
      intro e
      have := congrArg BitVec.toNat e
      simp only [BitVec.toNat_ofNat] at this
      omega
    have hb : (BitVec.ofNat 32 (g * 32 + r.val) == 0#32) = false := beq_eq_false_iff_ne.mpr hne
    show (if BitVec.ofBool (BitVec.ofNat 32 (g * 32 + r.val) == 0#32) = 1#1 then A else B) = B
    rw [hb]
    exact if_neg (by decide)

/-- The comparison word of the final store at (r, b), on scalars. -/
theorem firstRow_cond (i : grid1.Coords) (r : Fin 32) (b : Fin 64) :
    cmpi .eq
        (addi (iota .tc S32x64 32 [0] iota_S32x64_d0_w32)
          (broadcast S32x64 (Scalar.muli (BitVec.ofNat 32 (i 0).val) 32#32)))
        (broadcast S32x64 0#32) (ix2 r b)
      = IntOp.cmpi .eq (IntOp.addi (BitVec.ofNat 32 r.val) (Scalar.muli (BitVec.ofNat 32 (i 0).val) 32#32)) 0#32 := by
  show IntOp.cmpi .eq (IntOp.addi (iota .tc S32x64 32 [0] iota_S32x64_d0_w32 (ix2 r b)) _) _ = _
  rw [iota_single_apply]
  rfl

/-- The final store at (r, b): the accumulated sum minus 1 for the array's first row, else minus the weight of
    row r against the block's last loaded row. -/
theorem pay6_apply (i : grid1.Coords) (v3 : Vec Ideal S32x64x16 .f32) (v16 : Vec Ideal S1x64x16 .f32)
    (v34 : Vec Ideal S32x64 .f32) (r : Fin 32) (b : Fin 64) :
    k1_pay6 (F := Ideal) i v3 v16 v34 (ix2 r b)
      = v34 (ix2 r b)
        - (if (i 0).val * 32 + r.val = 0 then Cert.Spec.one
           else Ideal.exp (0 - ∑ c : Fin 16, max (v3 (ix3 r b c) - v16 (ix3 0 b c)) (-(v3 (ix3 r b c) - v16 (ix3 0 b c))))) := by
  have h8 : (i 0).val < 8 := (i 0).isLt
  unfold k1_pay6
  dsimp only
  rw [subf_apply, select_apply, firstRow_cond, firstRow_select (i 0).val h8 r]
  refine congrArg (v34 (ix2 r b) - ·) ?_
  by_cases h : (i 0).val * 32 + r.val = 0
  · rw [if_pos h, if_pos h]
    rfl
  · rw [if_neg h, if_neg h]
    exact weightTerm_apply v3 v16 _ _ _ r b

end Cert.KernelIdeal.Pay

end
-- ==== Proof.ValSpec.lean ====
/-
  The second kernel at the level of one pair of blocks: for a block `x0` of 32 rows (the rows whose sums are being
  formed) and a block `x1` of 32 rows (the rows they are compared with), the weight of row r of x0 against row s of x1
  in group b, and the sum of those weights over the 32 rows of x1.
-/
import proofs.«113968_j41326175322776_2_alg».proof.KernelIdeal
import proofs.«113968_j41326175322776_2_alg».proof.Proof.Spec
import Idealize.ShloMosaic.PureOps.Ideal
import Idealize.ShloMosaic.Lib.ValueIdx

noncomputable section

namespace Cert.KernelIdeal.Val

open Idealize.ShloMosaic Idealize.ShloMosaic.ValueIdx Cert.KernelIdeal

/-- exp(0 − Σ_c |x0(r,b,c) − x1(s,b,c)|), the absolute value written max y (−y). -/
def blockWeight (x0 x1 : S32x64x16.Idx → EReal) (r s : Fin 32) (b : Fin 64) : EReal :=
  Ideal.exp (0 - ∑ c : Fin 16, max (x0 (ix3 r b c) - x1 (ix3 s b c)) (-(x0 (ix3 r b c) - x1 (ix3 s b c))))

/-- The sum of the weights of row r of `x0` against the 32 rows of `x1`. -/
def blockSum (x0 x1 : S32x64x16.Idx → EReal) (r : Fin 32) (b : Fin 64) : EReal :=
  ∑ s : Fin 32, blockWeight x0 x1 r s b

end Cert.KernelIdeal.Val

end
-- ==== Proof.ValLoop.lean ====
/-
  The inner loop of the distance kernel, over the extended reals.

  The loop runs over the 32 rows of the second block; trip k loads row k and adds, at (r, b), the weight of row r
  of the first block against it.  So the value carried into trip k is the initial value plus the sum of the
  weights against rows 0 … k−1, and what the loop yields is the initial value plus the sum over all 32 rows.
-/
import proofs.«113968_j41326175322776_2_alg».proof.Proof.FrameR1
import proofs.«113968_j41326175322776_2_alg».proof.Proof.PayStore
import proofs.«113968_j41326175322776_2_alg».proof.Proof.ValSpec

set_option maxRecDepth 16384

noncomputable section

namespace Cert.KernelIdeal.Val

open Idealize.ShloMosaic Idealize.ShloMosaic.ValueIdx Idealize.ShloMosaic.Tactic
open Cert.KernelIdeal Cert.KernelIdeal.Gen Cert.KernelIdeal.Pay

variable [Cert.KernelIdeal.Facts]

/-- The loop makes 32 trips. -/
theorem trips_eq : k1_t1_loop.trips = 32 := by decide

/-- A load of one row [1,64,16] of a [32,64,16] array at row offset n reads, at (0, b, c), the array's entry
    (n, b, c). -/
theorem ld_row (x1 : Vec Ideal S32x64x16 .f32) (off : Fin S32x64x16.rank → Nat) (n : Fin 32)
    (hoff : off = ![n.val, 0, 0]) (inb : ∀ a, off a + S1x64x16.size a ≤ S32x64x16.size a) (b : Fin 64) (c : Fin 16) :
    View.ld x1 (Rect.unit off S1x64x16.size inb) (ix3 0 b c) = x1 (ix3 n b c) := by
  subst hoff
  refine congrArg x1 (funext fun a => Fin.ext ?_)
  match a with
  | ⟨0, _⟩ => show n.val + 1 * 0 = n.val; omega
  | ⟨1, _⟩ => show 0 + 1 * b.val = b.val; omega
  | ⟨2, _⟩ => show 0 + 1 * c.val = c.val; omega

/-- One trip, opened once: what trip k yields from the carried value is the trip's pure term applied to the
    row it loads. -/
theorem tripR_eq (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (v3 : Vec Ideal S32x64x16 .f32) (X : BufTy.Contents (Elt Ideal) arg3.view.ty)
    (k : Fin k1_t1_loop.trips) (acc : FVec Ideal S32x64 .f32) :
    tripR_k1_t1 (F := Ideal) Variants.none c none i arg2 harg2 arg3 harg3 arg4 harg4 arg5 harg5 v3 X k acc
      = k1_pay4 v3 acc (View.ld (arg3.view.read (Elt Ideal) X) (Rect.unit (k1_off1 k) S1x64x16.size (k1_off1_inb k))) := by
  unfold tripR_k1_t1 trip_k1_t1
  rfl

/-- Trip k adds, at (r, b), the weight of row r of the first block against row k of the second. -/
theorem tripR_apply (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (x0 : Vec Ideal S32x64x16 .f32) (X : BufTy.Contents (Elt Ideal) arg3.view.ty)
    (k : Fin k1_t1_loop.trips) (acc : FVec Ideal S32x64 .f32) (r : Fin 32) (b : Fin 64) :
    tripR_k1_t1 (F := Ideal) Variants.none c none i arg2 harg2 arg3 harg3 arg4 harg4 arg5 harg5 x0 X k acc (ix2 r b)
      = acc (ix2 r b)
        + blockWeight x0 (arg3.view.read (Elt Ideal) X) r ⟨k.val, lt_of_lt_of_eq k.isLt trips_eq⟩ b := by
  rw [tripR_eq, pay4_apply]
  unfold blockWeight
  refine congrArg (fun s => acc (ix2 r b) + Ideal.exp (0 - s)) (Finset.sum_congr rfl fun cc _ => ?_)
  rw [ld_row (arg3.view.read (Elt Ideal) X) (k1_off1 k) ⟨k.val, lt_of_lt_of_eq k.isLt trips_eq⟩ (k1_off1_eq k)]

/-- The value carried into trip k: the initial value plus the weights against rows 0 … k−1. -/
theorem st_apply (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (x0 : Vec Ideal S32x64x16 .f32) (X : BufTy.Contents (Elt Ideal) arg3.view.ty)
    (init : FVec Ideal S32x64 .f32) (r : Fin 32) (b : Fin 64) (k : ℕ) (hk : k ≤ 32) :
    st_k1_t1 (F := Ideal) Variants.none c none i arg2 harg2 arg3 harg3 arg4 harg4 arg5 harg5 x0 X init k (ix2 r b)
      = init (ix2 r b)
        + ∑ s : Fin k, blockWeight x0 (arg3.view.read (Elt Ideal) X) r ⟨s.val, lt_of_lt_of_le s.isLt hk⟩ b := by
  induction k with
  | zero =>
    rw [st_k1_t1_zero, Finset.univ_eq_empty, Finset.sum_empty, add_zero]
  | succ k ih =>
    have hkt : k < k1_t1_loop.trips := by rw [trips_eq]; omega
    have hs : st_k1_t1 (F := Ideal) Variants.none c none i arg2 harg2 arg3 harg3 arg4 harg4 arg5 harg5 x0 X init (k + 1)
        = tripR_k1_t1 (F := Ideal) Variants.none c none i arg2 harg2 arg3 harg3 arg4 harg4 arg5 harg5 x0 X ⟨k, hkt⟩
            (st_k1_t1 (F := Ideal) Variants.none c none i arg2 harg2 arg3 harg3 arg4 harg4 arg5 harg5 x0 X init k) :=
      st_k1_t1_succ (F := Ideal) Variants.none c none i arg2 harg2 arg3 harg3 arg4 harg4 arg5 harg5 x0 X init ⟨k, hkt⟩
    refine (congrFun hs (ix2 r b)).trans ?_
    rw [tripR_apply, ih (by omega), Fin.sum_univ_castSucc, add_assoc]
    rfl

/-- What the loop yields: the initial value plus the sum of the weights against all 32 rows. -/
theorem loop_apply (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (x0 : Vec Ideal S32x64x16 .f32) (X : BufTy.Contents (Elt Ideal) arg3.view.ty)
    (init : FVec Ideal S32x64 .f32) (r : Fin 32) (b : Fin 64) :
    st_k1_t1 (F := Ideal) Variants.none c none i arg2 harg2 arg3 harg3 arg4 harg4 arg5 harg5 x0 X init 32 (ix2 r b)
      = init (ix2 r b) + blockSum x0 (arg3.view.read (Elt Ideal) X) r b :=
  st_apply c i arg2 harg2 arg3 harg3 arg4 harg4 arg5 harg5 x0 X init r b 32 le_rfl

end Cert.KernelIdeal.Val

end
-- ==== Proof.ValPieces.lean ====
/-
  What each control case of the distance kernel leaves behind, over the extended reals.

  The scratch accumulator ends every case holding what it held before (zero when the case resets it first) plus,
  at (r, b), the sum of the weights of row r of the first block against the 32 rows of the second.  In the
  case that stores the result, the result's buffer holds that new accumulator minus the correction: 1 for the
  array's first row, else the weight against the second block's last row.
-/
import proofs.«113968_j41326175322776_2_alg».proof.Proof.FrameR1
import proofs.«113968_j41326175322776_2_alg».proof.Proof.PayStore
import proofs.«113968_j41326175322776_2_alg».proof.Proof.ValSpec
import proofs.«113968_j41326175322776_2_alg».proof.Proof.ValLoop
set_option maxRecDepth 16384

noncomputable section

namespace Cert.KernelIdeal.Val

open Idealize.ShloMosaic Idealize.ShloMosaic.ValueIdx Idealize.ShloMosaic.Tactic
open Cert.KernelIdeal Cert.KernelIdeal.Gen Cert.KernelIdeal.Pay

variable [Cert.KernelIdeal.Facts]

/-! ## Loads through whole buffers -/

theorem zeros2 : (![0, 0] : Fin 2 → Nat) = fun _ => 0 := by
  funext a; match a with | ⟨0, _⟩ => rfl | ⟨1, _⟩ => rfl

theorem zeros3 : (![0, 0, 0] : Fin 3 → Nat) = fun _ => 0 := by
  funext a; match a with | ⟨0, _⟩ => rfl | ⟨1, _⟩ => rfl | ⟨2, _⟩ => rfl

/-- A load of a whole [32,64] buffer reads its contents. -/
theorem readWhole2 (M : Memref sig .tc .vmem S32x64 .f32) (h : M.IsWhole) (xs : Vec Ideal S32x64 .f32)
    (inb : ∀ a, (![0, 0] : Fin 2 → Nat) a + S32x64.size a ≤ S32x64.size a) :
    View.readAt (Elt Ideal) M.view (Rect.unit ![0, 0] S32x64.size inb).toLoadRect (h.unread xs) = xs := by
  rw [View.readAt_eq_ld, h.read_unread, View.ld_unit_zero zeros2]

/-- A load of a whole [32,64,16] buffer reads its contents. -/
theorem readWhole3 (M : Memref sig .tc .vmem S32x64x16 .f32) (h : M.IsWhole) (x : Vec Ideal S32x64x16 .f32)
    (inb : ∀ a, (![0, 0, 0] : Fin 3 → Nat) a + S32x64x16.size a ≤ S32x64x16.size a) :
    View.readAt (Elt Ideal) M.view (Rect.unit ![0, 0, 0] S32x64x16.size inb).toLoadRect (h.unread x) = x := by
  rw [View.readAt_eq_ld, h.read_unread, View.ld_unit_zero zeros3]

/-! ## The accumulator's new contents -/

/-- The old accumulator contents plus the loop's result: at (r, b), plus the sum of the 32 weights. -/
theorem accTerm_apply (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (x0 x1 : Vec Ideal S32x64x16 .f32) (v8 : Vec Ideal S32x64 .f32) (n : ℕ) (hn : n = 32)
    (inb : ∀ a, (![0, 0, 0] : Fin 3 → Nat) a + S32x64x16.size a ≤ S32x64x16.size a) (r : Fin 32) (b : Fin 64) :
    k1_pay5 (F := Ideal)
        (st_k1_t1 (F := Ideal) Variants.none c none i arg2 harg2 arg3 harg3 arg4 harg4 arg5 harg5
          (View.readAt (Elt Ideal) arg2.view (Rect.unit ![0, 0, 0] S32x64x16.size inb).toLoadRect (harg2.unread x0))
          (harg3.unread x1) (k1_pay3 (F := Ideal)) n) v8 (ix2 r b)
      = v8 (ix2 r b) + blockSum x0 x1 r b := by
  subst hn
  rw [pay5_apply, readWhole3, loop_apply, harg3.read_unread, pay3z_apply, zero_add]

/-! ## The three cases -/

/-- The case that resets the accumulator first: it ends holding the sum of the weights alone. -/
theorem soutA_apply (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : Fr.cond1_0 i) (hc1 : ¬Fr.cond1_1 i)
    (x0 x1 : Vec Ideal S32x64x16 .f32) (r : Fin 32) (b : Fin 64) :
    Fr.sout1_A_0 (F := Ideal) c i arg2 harg2 arg3 harg3 arg4 harg4 arg5 harg5 hc0 hc1 x0 x1 (ix2 r b) = blockSum x0 x1 r b := by
  unfold Fr.sout1_A_0
  rw [View.read_writes_eq_canon _ _ _ (Fr.scover1_A_0 c i arg2 harg2 arg3 harg3 arg4 harg4 arg5 harg5 hc0 hc1 x0 x1)]
  unfold Fr.kernelRun1_A
  dsimp only
  sl_unfold_run_names
  rw [View.canon_cons_unit_zero zeros2]
  refine (accTerm_apply c i arg2 harg2 arg3 harg3 arg4 harg4 arg5 harg5 x0 x1 _ _ trips_eq _ r b).trans ?_
  rw [View.readCov_unit_zero _ zeros2, pay1z_apply, zero_add]

/-- The case that only accumulates. -/
theorem soutB_apply (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬Fr.cond1_0 i) (hc1 : ¬Fr.cond1_1 i)
    (x0 x1 : Vec Ideal S32x64x16 .f32) (xs0 : Vec Ideal S32x64 .f32) (r : Fin 32) (b : Fin 64) :
    Fr.sout1_B_0 (F := Ideal) c i arg2 harg2 arg3 harg3 arg4 harg4 arg5 harg5 hc0 hc1 x0 x1 xs0 (ix2 r b) = xs0 (ix2 r b) + blockSum x0 x1 r b := by
  unfold Fr.sout1_B_0
  rw [View.read_writes_eq_canon _ _ _ (Fr.scover1_B_0 c i arg2 harg2 arg3 harg3 arg4 harg4 arg5 harg5 hc0 hc1 x0 x1 xs0)]
  unfold Fr.kernelRun1_B
  dsimp only
  sl_unfold_run_names
  rw [View.canon_unit_zero zeros2]
  refine (accTerm_apply c i arg2 harg2 arg3 harg3 arg4 harg4 arg5 harg5 x0 x1 _ _ trips_eq _ r b).trans ?_
  rw [readWhole2]

/-- The case that accumulates and then stores the result: the accumulator. -/
theorem soutC_apply (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬Fr.cond1_0 i) (hc1 : Fr.cond1_1 i)
    (x0 x1 : Vec Ideal S32x64x16 .f32) (xs0 : Vec Ideal S32x64 .f32) (r : Fin 32) (b : Fin 64) :
    Fr.sout1_C_0 (F := Ideal) c i arg2 harg2 arg3 harg3 arg4 harg4 arg5 harg5 hc0 hc1 x0 x1 xs0 (ix2 r b) = xs0 (ix2 r b) + blockSum x0 x1 r b := by
  unfold Fr.sout1_C_0
  rw [View.read_writes_eq_canon _ _ _ (Fr.scover1_C_0 c i arg2 harg2 arg3 harg3 arg4 harg4 arg5 harg5 hc0 hc1 x0 x1 xs0)]
  unfold Fr.kernelRun1_C
  dsimp only
  sl_unfold_run_names
  rw [View.canon_unit_zero zeros2]
  refine (accTerm_apply c i arg2 harg2 arg3 harg3 arg4 harg4 arg5 harg5 x0 x1 _ _ trips_eq _ r b).trans ?_
  rw [readWhole2]

/-- The same case: the result's buffer holds the new accumulator minus the correction. -/
theorem outC_apply (c : Dev nD) (i : grid1.Coords) (arg2 : Memref sig .tc .vmem S32x64x16 .f32) (harg2 : arg2.IsWhole) (arg3 : Memref sig .tc .vmem S32x64x16 .f32) (harg3 : arg3.IsWhole) (arg4 : Memref sig .tc .vmem S32x64 .f32) (harg4 : arg4.IsWhole) (arg5 : Memref sig .tc .vmem S32x64 .f32) (harg5 : arg5.IsWhole) (hc0 : ¬Fr.cond1_0 i) (hc1 : Fr.cond1_1 i)
    (x0 x1 : Vec Ideal S32x64x16 .f32) (xs0 : Vec Ideal S32x64 .f32) (r : Fin 32) (b : Fin 64) :
    Fr.out1_C_2 (F := Ideal) c i arg2 harg2 arg3 harg3 arg4 harg4 arg5 harg5 hc0 hc1 x0 x1 xs0 (ix2 r b)
      = (xs0 (ix2 r b) + blockSum x0 x1 r b)
        - (if (i 0).val * 32 + r.val = 0 then Cert.Spec.one else blockWeight x0 x1 r 31 b) := by
  unfold Fr.out1_C_2
  rw [View.read_writes_eq_canon _ _ _ (Fr.cover1_C_2 c i arg2 harg2 arg3 harg3 arg4 harg4 arg5 harg5 hc0 hc1 x0 x1 xs0)]
  unfold Fr.kernelRun1_C
  dsimp only
  sl_unfold_run_names
  rw [View.canon_unit_zero zeros2, pay6_apply]
  refine congrArg₂ (· - ·) ?_ ?_
  · rw [View.readCov_unit_zero _ zeros2]
    refine (accTerm_apply c i arg2 harg2 arg3 harg3 arg4 harg4 arg5 harg5 x0 x1 _ _ trips_eq _ r b).trans ?_
    rw [readWhole2]
  · by_cases h : (i 0).val * 32 + r.val = 0
    · rw [if_pos h, if_pos h]
    · rw [if_neg h, if_neg h]
      unfold blockWeight
      rw [readWhole3]
      refine congrArg (fun s => Ideal.exp (0 - s)) (Finset.sum_congr rfl fun cc _ => ?_)
      rw [View.readAt_eq_ld, harg3.read_unread, ld_row x1 ![31, 0, 0] 31 rfl]

end Cert.KernelIdeal.Val

end
-- ==== Proof.ValBlocks.lean ====
/-
  The second kernel's blocks read off the array they window. At point t = 8·i + j the first input window holds rows
  32·i … 32·i+31 of the product array, the second rows 32·j … 32·j+31 of the same array, and the result window rows
  32·i … 32·i+31 of the result array; the last two axes are whole.
-/
import proofs.«113968_j41326175322776_2_alg».proof.Proof.FrameR1
import proofs.«113968_j41326175322776_2_alg».proof.Proof.ValSpec
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Fr

variable {F : FTy → Type} [FloatOps F]

/-- The printed index maps, decided over the grid. -/
theorem idx_facts1 : ∀ t : Fin cfg1.N, win1_0.index t (0 : Fin 3) = t.val / 8 ∧ win1_0.index t (1 : Fin 3) = 0 ∧ win1_0.index t (2 : Fin 3) = 0
    ∧ win1_1.index t (0 : Fin 3) = t.val % 8 ∧ win1_1.index t (1 : Fin 3) = 0 ∧ win1_1.index t (2 : Fin 3) = 0
    ∧ win1_2.index t (0 : Fin 2) = t.val / 8 ∧ win1_2.index t (1 : Fin 2) = 0 :=
  (by decide +kernel : ∀ t : Fin grid1.N, _)

section
variable (V : (c : Dev nD) → (b : Ref sig .tc) → Buf (Elt F) ((c : Thread nD τ).loc b)) (c : Dev nD)

/-- Row r of the first input window's block at point t is row 32·(t/8) + r of the product array. -/
theorem blk0_read (t : Fin cfg1.N) (r : Fin 32) (b : Fin 64) (k : Fin 16) (hr : 32 * (t.val / 8) + r.val < 256) :
    iblk1 V c 0 t (ix3 r b k) = V c main_v2 (ix3 ⟨32 * (t.val / 8) + r.val, hr⟩ b k) := by
  obtain ⟨e0, e1, e2, -, -, -, -, -⟩ := idx_facts1 t
  unfold iblk1
  rw [View.read_apply]
  show V c main_v2 (((cfg1.win 0).blk t).view.emb (ix3 r b k)) = _
  refine congrArg (V c main_v2) ?_
  funext a; apply Fin.ext
  match a with
  | ⟨0, _⟩ => show win1_0.index t (0 : Fin 3) * 32 + 1 * r.val = 32 * (t.val / 8) + r.val; omega
  | ⟨1, _⟩ => show win1_0.index t (1 : Fin 3) * 64 + 1 * b.val = b.val; omega
  | ⟨2, _⟩ => show win1_0.index t (2 : Fin 3) * 16 + 1 * k.val = k.val; omega

/-- Row s of the second input window's block at point t is row 32·(t%8) + s of the product array. -/
theorem blk1_read (t : Fin cfg1.N) (s : Fin 32) (b : Fin 64) (k : Fin 16) (hs : 32 * (t.val % 8) + s.val < 256) :
    iblk1 V c 1 t (ix3 s b k) = V c main_v2 (ix3 ⟨32 * (t.val % 8) + s.val, hs⟩ b k) := by
  obtain ⟨-, -, -, e0, e1, e2, -, -⟩ := idx_facts1 t
  unfold iblk1
  rw [View.read_apply]
  show V c main_v2 (((cfg1.win 1).blk t).view.emb (ix3 s b k)) = _
  refine congrArg (V c main_v2) ?_
  funext a; apply Fin.ext
  match a with
  | ⟨0, _⟩ => show win1_1.index t (0 : Fin 3) * 32 + 1 * s.val = 32 * (t.val % 8) + s.val; omega
  | ⟨1, _⟩ => show win1_1.index t (1 : Fin 3) * 64 + 1 * b.val = b.val; omega
  | ⟨2, _⟩ => show win1_1.index t (2 : Fin 3) * 16 + 1 * k.val = k.val; omega

end

/-- Entry (r, b) of the result window's block at point t is entry (32·(t/8) + r, b) of the result array. -/
theorem blk2_emb (t : Fin cfg1.N) (r : Fin 32) (b : Fin 64) (hr : 32 * (t.val / 8) + r.val < 256) :
    ((cfg1.win 2).blk t).view.emb (ix2 r b) = ix2 ⟨32 * (t.val / 8) + r.val, hr⟩ b := by
  obtain ⟨-, -, -, -, -, -, e0, e1⟩ := idx_facts1 t
  funext a; apply Fin.ext
  match a with
  | ⟨0, _⟩ => show win1_2.index t (0 : Fin 2) * 32 + 1 * r.val = 32 * (t.val / 8) + r.val; omega
  | ⟨1, _⟩ => show win1_2.index t (1 : Fin 2) * 64 + 1 * b.val = b.val; omega

end Cert.KernelIdeal.Val

end
-- ==== Proof.ValSums.lean ====
/-
  A sum over 256 indices is the sum over 8 blocks of the sums over the 32 positions inside each block
  (index 32·a + s for block a and position s). In any additive commutative monoid.
-/
import Mathlib.Algebra.BigOperators.Fin
import Mathlib.Logic.Equiv.Fin.Basic
import Mathlib.Algebra.BigOperators.Intervals

namespace Cert.KernelIdeal.Val

theorem sum_blocks {M : Type*} [AddCommMonoid M] (g : Fin 256 → M) :
    ∑ j : Fin 256, g j = ∑ a : Fin 8, ∑ s : Fin 32, g ⟨32 * a.val + s.val, by have := a.isLt; have := s.isLt; omega⟩ := by
  have h := Equiv.sum_comp (finProdFinEquiv : Fin 8 × Fin 32 ≃ Fin (8 * 32)) (g : Fin (8 * 32) → M)
  rw [show (∑ j : Fin 256, g j) = ∑ j : Fin (8 * 32), (g : Fin (8 * 32) → M) j from rfl, ← h, Fintype.sum_prod_type]
  refine Finset.sum_congr rfl fun a _ => Finset.sum_congr rfl fun s _ => congrArg g (Fin.ext ?_)
  show s.val + 32 * a.val = 32 * a.val + s.val
  omega

/-- A sum over the first `n + 1` naturals of a function of `base + k`, one more term at a time. -/
theorem sum_range_shift {M : Type*} [AddCommMonoid M] (f : ℕ → M) (base n : ℕ) :
    ∑ k ∈ Finset.range (n + 1 + 1), f (base + k) = (∑ k ∈ Finset.range (n + 1), f (base + k)) + f (base + (n + 1)) :=
  Finset.sum_range_succ (fun k => f (base + k)) (n + 1)

end Cert.KernelIdeal.Val
-- ==== Proof.ValRows.lean ====
/-
  The second kernel region, point by point, at the ideal values.

  Write P for the product array the region reads. At point t = 8·i + j the body adds to the accumulator, for each
  row r of block i and each group b, the sum over the 32 rows s of block j of the weight of row 32·i + r against row
  32·j + s. The accumulator is reset when j = 0, so after point t it holds the sum over the blocks 0 … j; at j = 7 the
  result window's buffer takes that sum over all 256 rows, less 1 for the very first row and less the weight against
  the last row (row 255) for every other row. These are the entries of the specification, block by block.
-/
import proofs.«113968_j41326175322776_2_alg».proof.Proof.ValPieces
import proofs.«113968_j41326175322776_2_alg».proof.Proof.ValBlocks
import proofs.«113968_j41326175322776_2_alg».proof.Proof.ValSums

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b)) (c : Dev nD)

/-- The product array's entries. -/
def Pof (i : Fin 256) (b : Fin 64) (k : Fin 16) : EReal := V c main_v2 (ix3 i b k)

/-- What point `n` adds to the accumulator at (r, b) (0 past the grid). -/
def bsAt (n : ℕ) (r : Fin 32) (b : Fin 64) : EReal :=
  if h : n < cfg1.N then blockSum (iblk1 V c 0 ⟨n, h⟩) (iblk1 V c 1 ⟨n, h⟩) r b else 0

theorem bsAt_of_lt (n : ℕ) (h : n < cfg1.N) (r : Fin 32) (b : Fin 64) :
    bsAt V c n r b = blockSum (iblk1 V c 0 ⟨n, h⟩) (iblk1 V c 1 ⟨n, h⟩) r b := dif_pos h

/-- THE ACCUMULATOR after point `n`: the contributions of the points since the last reset. -/
theorem acc_eq : ∀ (n : ℕ) (hn : n < cfg1.N) (r : Fin 32) (b : Fin 64),
    (outsAt1 V c n hn).2 (ix2 r b) = ∑ k ∈ Finset.range (n % 8 + 1), bsAt V c (n - n % 8 + k) r b := by
  intro n
  induction n with
  | zero =>
    intro hn r b
    refine (congrArg (fun p => p.2 (ix2 r b)) (outsAt1_A V c ⟨0, hn⟩ (Nat.zero_mod _) (show ¬(0 : ℕ) % 8 = 7 by decide))).trans ?_
    dsimp only
    refine (soutA_apply _ _ _ _ _ _ _ _ _ _ _ _ _ _ r b).trans ?_
    rw [show (0 : ℕ) % 8 + 1 = 1 from rfl, Finset.sum_range_one]
    exact (bsAt_of_lt V c 0 hn r b).symm
  | succ n ih =>
    intro hn r b
    have hN : n + 1 < 64 := lt_of_lt_of_eq hn (show cfg1.N = 64 from N_1)
    by_cases h0 : (n + 1) % 8 = 0
    · have h1 : ¬(n + 1) % 8 = 7 := by omega
      refine (congrArg (fun p => p.2 (ix2 r b)) (outsAt1_A V c ⟨n + 1, hn⟩ h0 h1)).trans ?_
      dsimp only
      refine (soutA_apply _ _ _ _ _ _ _ _ _ _ _ _ _ _ r b).trans ?_
      rw [h0, show (0 : ℕ) + 1 = 1 from rfl, Finset.sum_range_one, Nat.sub_zero]
      exact (bsAt_of_lt V c (n + 1) hn r b).symm
    · have e1 : (n + 1) % 8 = n % 8 + 1 := by omega
      have e2 : n + 1 - (n % 8 + 1) = n - n % 8 := by omega
      have e3 : n - n % 8 + (n % 8 + 1) = n + 1 := by omega
      have hprev := ih (Nat.lt_of_succ_lt hn) r b
      rw [e1, e2, Finset.sum_range_succ (fun k => bsAt V c (n - n % 8 + k) r b) (n % 8 + 1), e3, bsAt_of_lt V c _ hn, ← hprev]
      by_cases h1 : (n + 1) % 8 = 7
      · refine (congrArg (fun p => p.2 (ix2 r b)) (outsAt1_C V c ⟨n + 1, hn⟩ h0 h1)).trans ?_
        dsimp only
        exact soutC_apply _ _ _ _ _ _ _ _ _ _ _ _ _ _ _ r b
      · refine (congrArg (fun p => p.2 (ix2 r b)) (outsAt1_B V c ⟨n + 1, hn⟩ h0 h1)).trans ?_
        dsimp only
        exact soutB_apply _ _ _ _ _ _ _ _ _ _ _ _ _ _ _ r b

/-- The first grid coordinate of point t is t / 8. -/
theorem coords_facts1 : ∀ t : Fin cfg1.N, ((grid1.coords t) 0).val = t.val / 8 :=
  (by decide +kernel : ∀ t : Fin grid1.N, ((grid1.coords t) 0).val = t.val / 8)

/-- THE RESULT WINDOW'S BUFFER after a point with second coordinate 7: the eight contributions since the reset, less
    the adjustment. -/
theorem out_eq (t : Fin cfg1.N) (h7 : t.val % 8 = 7) (r : Fin 32) (b : Fin 64) :
    (outsAt1 V c t.val t.isLt).1 (ix2 r b)
      = (∑ k ∈ Finset.range 8, bsAt V c (t.val - 7 + k) r b)
        - (if (t.val / 8) * 32 + r.val = 0 then Cert.Spec.one else blockWeight (iblk1 V c 0 t) (iblk1 V c 1 t) r 31 b) := by
  have h0 : ¬t.val % 8 = 0 := by omega
  have hN : t.val < 64 := lt_of_lt_of_eq t.isLt (show cfg1.N = 64 from N_1)
  refine (congrArg (fun p => p.1 (ix2 r b)) (outsAt1_C V c t h0 h7)).trans ?_
  dsimp only
  refine (outC_apply _ _ _ _ _ _ _ _ _ _ _ _ _ _ _ r b).trans ?_
  rw [acc_eq V c (t.val - 1) _ r b, coords_facts1 t]
  have e1 : (t.val - 1) % 8 + 1 = 7 := by omega
  have e2 : t.val - 1 - (t.val - 1) % 8 = t.val - 7 := by omega
  have e3 : t.val - 7 + 7 = t.val := by omega
  have hs : ∑ k ∈ Finset.range 8, bsAt V c (t.val - 7 + k) r b
      = (∑ k ∈ Finset.range 7, bsAt V c (t.val - 7 + k) r b) + bsAt V c (t.val - 7 + 7) r b :=
    Finset.sum_range_succ (fun k => bsAt V c (t.val - 7 + k) r b) 7
  rw [e1, e2, hs, e3, bsAt_of_lt V c t.val t.isLt]

/-- What point `n` adds, in terms of the product array: the weights of row 32·(n/8) + r against the 32 rows of
    block n % 8. -/
theorem bsAt_P (n : ℕ) (hn : n < 64) (r : Fin 32) (b : Fin 64) :
    bsAt V c n r b = ∑ s : Fin 32, Cert.Spec.weight (Pof V c) ⟨32 * (n / 8) + r.val, by have := r.isLt; omega⟩ ⟨32 * (n % 8) + s.val, by have := s.isLt; omega⟩ b := by
  have hn' : n < cfg1.N := lt_of_lt_of_eq hn (show 64 = cfg1.N from N_1.symm)
  rw [bsAt_of_lt V c n hn']
  unfold blockSum
  refine Finset.sum_congr rfl fun s _ => ?_
  unfold blockWeight Cert.Spec.weight Cert.Spec.dist Pof
  rw [zero_sub]
  refine congrArg (fun z => Ideal.exp (-z)) (Finset.sum_congr rfl fun k _ => ?_)
  rw [blk0_read V c ⟨n, hn'⟩ r b k (by have := r.isLt; show 32 * (n / 8) + r.val < 256; omega),
    blk1_read V c ⟨n, hn'⟩ s b k (by have := s.isLt; show 32 * (n % 8) + s.val < 256; omega)]

/-- The weight against the last row of the last block is the weight against row 255. -/
theorem last_weight (t : Fin cfg1.N) (h7 : t.val % 8 = 7) (r : Fin 32) (b : Fin 64) (hr : 32 * (t.val / 8) + r.val < 256) :
    blockWeight (iblk1 V c 0 t) (iblk1 V c 1 t) r 31 b = Cert.Spec.weight (Pof V c) ⟨32 * (t.val / 8) + r.val, hr⟩ ⟨255, by norm_num⟩ b := by
  unfold blockWeight Cert.Spec.weight Cert.Spec.dist Pof
  rw [zero_sub]
  refine congrArg (fun z => Ideal.exp (-z)) (Finset.sum_congr rfl fun k _ => ?_)
  rw [blk0_read V c t r b k hr, blk1_read V c t 31 b k (by show 32 * (t.val % 8) + 31 < 256; omega)]
  have e : (⟨32 * (t.val % 8) + (31 : Fin 32).val, by show 32 * (t.val % 8) + 31 < 256; omega⟩ : Fin 256) = ⟨255, by norm_num⟩ :=
    Fin.ext (by show 32 * (t.val % 8) + 31 = 255; omega)
  rw [e]

/-- A ROW OF THE RESULT: at a point with second coordinate 7, entry (r, b) of the result window's buffer is the
    sum over all 256 rows of the weights of row 32·(t/8) + r, less the adjustment of that row. -/
theorem row_eq (t : Fin cfg1.N) (h7 : t.val % 8 = 7) (r : Fin 32) (b : Fin 64) (hr : 32 * (t.val / 8) + r.val < 256) :
    (outsAt1 V c t.val t.isLt).1 (ix2 r b)
      = (∑ j : Fin 256, Cert.Spec.weight (Pof V c) ⟨32 * (t.val / 8) + r.val, hr⟩ j b)
        - Cert.Spec.adjust (Pof V c) ⟨32 * (t.val / 8) + r.val, hr⟩ b := by
  have hN : t.val < 64 := lt_of_lt_of_eq t.isLt (show cfg1.N = 64 from N_1)
  rw [out_eq V c t h7 r b]
  congr 1
  · rw [sum_blocks, Finset.sum_range]
    refine Finset.sum_congr rfl fun a _ => ?_
    have ha : a.val < 8 := a.isLt
    rw [bsAt_P V c (t.val - 7 + a.val) (by omega) r b]
    refine Finset.sum_congr rfl fun s _ => ?_
    have e1 : (⟨32 * ((t.val - 7 + a.val) / 8) + r.val, by have := r.isLt; omega⟩ : Fin 256) = ⟨32 * (t.val / 8) + r.val, hr⟩ :=
      Fin.ext (by show 32 * ((t.val - 7 + a.val) / 8) + r.val = 32 * (t.val / 8) + r.val; omega)
    have e2 : (⟨32 * ((t.val - 7 + a.val) % 8) + s.val, by have := s.isLt; omega⟩ : Fin 256) = ⟨32 * a.val + s.val, by have := s.isLt; omega⟩ :=
      Fin.ext (by show 32 * ((t.val - 7 + a.val) % 8) + s.val = 32 * a.val + s.val; omega)
    rw [e1, e2]
  · unfold Cert.Spec.adjust
    rw [last_weight V c t h7 r b hr]
    refine if_congr ?_ rfl rfl
    show t.val / 8 * 32 + r.val = 0 ↔ 32 * (t.val / 8) + r.val = 0
    omega

end Cert.KernelIdeal.Val

end
-- ==== Proof.PayMatmul.lean ====
/-
  The matmul kernel's pure term, read at one index over the extended reals.

  The body rounds both operands to a narrower format (the identity on the extended reals), casts the right
  operand to its own shape, and multiplies into a zero accumulator: entry (p, q) of the result is
  Σ_a x(p,a) · y(a,q), the sum over the one contracted axis of extent 1024.
-/
import proofs.«113968_j41326175322776_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

variable [Cert.KernelIdeal.Facts]

/-! ## The operand indices of the product: the left operand is read at (row of the result, contraction index), the
right at (contraction index, column of the result). -/

theorem dot_lhs_0 (i : S128x1024.Idx) (k : dot_S128x1024_S1024x1024_S128x1024_1_0_0_1_n_n.contr.Idx) :
    (dot_S128x1024_S1024x1024_S128x1024_1_0_0_1_n_n.lhsIdx i k 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl

theorem dot_lhs_1 (i : S128x1024.Idx) (k : dot_S128x1024_S1024x1024_S128x1024_1_0_0_1_n_n.contr.Idx) :
    (dot_S128x1024_S1024x1024_S128x1024_1_0_0_1_n_n.lhsIdx i k 1).val = (k ⟨0, by decide⟩).val :=
  dot_S128x1024_S1024x1024_S128x1024_1_0_0_1_n_n.lhsIdx_val_of_single rfl i k

theorem dot_rhs_0 (i : S128x1024.Idx) (k : dot_S128x1024_S1024x1024_S128x1024_1_0_0_1_n_n.contr.Idx) :
    (dot_S128x1024_S1024x1024_S128x1024_1_0_0_1_n_n.rhsIdx i k 0).val = (k ⟨0, by decide⟩).val :=
  dot_S128x1024_S1024x1024_S128x1024_1_0_0_1_n_n.rhsIdx_val_of_single rfl i k

theorem dot_rhs_1 (i : S128x1024.Idx) (k : dot_S128x1024_S1024x1024_S128x1024_1_0_0_1_n_n.contr.Idx) :
    (dot_S128x1024_S1024x1024_S128x1024_1_0_0_1_n_n.rhsIdx i k 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- Entry (p, q) of the matmul body's result: the sum over a of x(p,a) · y(a,q). -/
theorem pay1_apply (v0 : Vec Ideal S128x1024 .f32) (v2 : Vec Ideal S1024x1024 .f32) (p : Fin 128) (q : Fin 1024) :
    k0_pay1 (F := Ideal) v0 v2 (ix2 p q) = ∑ a : Fin 1024, v0 (ix2 p a) * v2 (ix2 a q) := by
  unfold k0_pay1
  rw [shapeCast_self]
  refine (Ideal.matmul_constant_zero_apply dot_S128x1024_S1024x1024_S128x1024_1_0_0_1_n_n none _ _ (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k :=
    funext fun a => Fin.ext (by
      match a with
      | ⟨0, _⟩ => exact dot_lhs_0 _ _
      | ⟨1, _⟩ => exact (dot_lhs_1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q :=
    funext fun a => Fin.ext (by
      match a with
      | ⟨0, _⟩ => exact (dot_rhs_0 _ _).trans hk
      | ⟨1, _⟩ => exact dot_rhs_1 _ _)
  rw [el, er]
  rfl

end Cert.KernelIdeal.Pay

end
-- ==== Proof.ValProd.lean ====
/-
  The first kernel's result array, as one function of the two arrays it reads.

  The region's grid has two points. Point t multiplies rows 128·t … 128·t + 127 of the left array
  (window 0's block) with the whole right array (window 1's block, the same at both points) and
  writes the product to rows 128·t … 128·t + 127 of the result (window 2's block). The two row
  blocks tile the 256 rows, so after the region entry (p, q) of the result is Σ_a A(p,a) · B(a,q),
  with A and B the two arrays as the region finds them.
-/
import proofs.«113968_j41326175322776_2_alg».proof.Proof.FrameR0
import proofs.«113968_j41326175322776_2_alg».proof.Proof.PayMatmul
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

/-! ## The whole-array product -/

/-- The row and the column of an index of a 256 × 1024 array, as numbers of literal range. -/
def rowOf (k : S256x1024.Idx) : Fin 256 := ⟨(k 0).val, idx2_lt0 k⟩
def colOf (k : S256x1024.Idx) : Fin 1024 := ⟨(k 1).val, idx2_lt1 k⟩

/-- The product of a 256 × 1024 array with a 1024 × 1024 array, entry by entry. -/
def prodArr (A : Vec Ideal S256x1024 .f32) (B : Vec Ideal S1024x1024 .f32) : Vec Ideal S256x1024 .f32 :=
  fun k => ∑ a : Fin 1024, A (ix2 (rowOf k) a) * B (ix2 a (colOf k))

theorem prodArr_ix2 (A : Vec Ideal S256x1024 .f32) (B : Vec Ideal S1024x1024 .f32) (p : Fin 256) (q : Fin 1024) :
    prodArr A B (ix2 p q) = ∑ a : Fin 1024, A (ix2 p a) * B (ix2 a q) := rfl

/-! ## Where the three windows' blocks sit -/

theorem zero_off : (![0, 0] : Fin 2 → Nat) = fun _ => 0 := funext fun a => by fin_cases a <;> rfl

/-- The block indices at point t: the left operand's and the result's row block is t, the right
    operand's block is the whole array; every column block index is 0. -/
theorem blk_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable [Cert.KernelIdeal.Facts]
variable (V : (c : Dev nD) → (b : Ref sig .tc) → Buf (Elt Ideal) ((c : Thread nD τ).loc b))

/-- The left operand's block at point t is rows 128·t … 128·t + 127 of the left array. -/
theorem blk_left (c : Dev nD) (t : Fin cfg0.N) (y : S128x1024.Idx) (k : S256x1024.Idx)
    (hk0 : (k 0).val = t.val * 128 + (y 0).val) (hk1 : (k 1).val = (y 1).val) :
    (Fr.iblk0 V c 0 t : Vec Ideal S128x1024 .f32) y = (V c main_arg0 : Vec Ideal S256x1024 .f32) k := by
  obtain ⟨e0, e1, -⟩ := blk_index t
  unfold Fr.iblk0
  rw [View.read_apply]
  show (V c main_arg0 : Vec Ideal S256x1024 .f32) _ = (V c main_arg0 : Vec Ideal S256x1024 .f32) _
  refine congrArg (V c main_arg0 : Vec Ideal S256x1024 .f32) ?_
  funext a; apply Fin.ext
  match a with
  | ⟨0, _⟩ => show win0_0.index t (0 : Fin 2) * 128 + 1 * (y 0).val = (k 0).val; rw [e0, hk0]; omega
  | ⟨1, _⟩ => show win0_0.index t (1 : Fin 2) * 1024 + 1 * (y 1).val = (k 1).val; rw [e1, hk1]; omega

/-- The right operand's block, at either point, is the whole right array. -/
theorem blk_right (c : Dev nD) (t : Fin cfg0.N) :
    (Fr.iblk0 V c 1 t : Vec Ideal S1024x1024 .f32) = (V c main_v0 : Vec Ideal S1024x1024 .f32) := by
  obtain ⟨-, -, e0, e1, -⟩ := blk_index t
  funext y
  unfold Fr.iblk0
  rw [View.read_apply]
  show (V c main_v0 : Vec Ideal S1024x1024 .f32) _ = (V c main_v0 : Vec Ideal S1024x1024 .f32) y
  refine congrArg (V c main_v0 : Vec Ideal S1024x1024 .f32) ?_
  funext a; apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-! ## What a point writes back -/

/-- The body's product of a row block of A (rows r·128 …) with the whole of B, at entry y of the
    block, is entry k of the whole-array product when k is y moved down by r·128 rows. -/
theorem pay_at (x0 : Vec Ideal S128x1024 .f32) (x1 : Vec Ideal S1024x1024 .f32)
    (A : Vec Ideal S256x1024 .f32) (B : Vec Ideal S1024x1024 .f32) (r : Nat)
    (h0 : ∀ (y : S128x1024.Idx) (k : S256x1024.Idx), (k 0).val = r * 128 + (y 0).val → (k 1).val = (y 1).val → x0 y = A k)
    (h1 : x1 = B)
    (y : S128x1024.Idx) (k : S256x1024.Idx) (hk0 : (k 0).val = r * 128 + (y 0).val) (hk1 : (k 1).val = (y 1).val) :
    k0_pay1 (F := Ideal) x0 x1 y = prodArr A B k := by
  subst h1
  obtain ⟨p, q, rfl⟩ : ∃ (p : Fin 128) (q : Fin 1024), y = ix2 p q := ⟨y 0, y 1, eq_ix2 y⟩
  rw [Pay.pay1_apply]
  unfold prodArr
  refine Finset.sum_congr rfl fun a _ => ?_
  rw [h0 (ix2 p a) (ix2 (rowOf k) a) hk0 rfl]
  have hq : colOf k = q := Fin.ext hk1
  rw [hq]

/-- What point t writes back to the result is block t of the whole-array product. -/
theorem flushed_eq (c : Dev nD) (t : Fin cfg0.N) :
    (Fr.dat0 V c).flushed 2 t
      = ((cfg0.win 2).blk t).view.read (Elt Ideal) (prodArr (V c main_arg0) (V c main_v0)) := by
  show (cfg0.win 2).cut (grid0.coords t) ((Fr.dat0 V c).after 2 t) = _
  rw [Fr.after0_2]
  unfold Fr.out0_2
  rw [View.canon_unit_zero zero_off]
  simp only [View.ld_unit_zero (S := S128x1024) zero_off, View.ld_unit_zero (S := S1024x1024) zero_off]
  obtain ⟨-, -, -, -, e0, e1⟩ := blk_index t
  refine funext fun (j : S128x1024.Idx) => ?_
  show k0_pay1 (F := Ideal) (Fr.iblk0 V c 0 t) (Fr.iblk0 V c 1 t) j
    = prodArr (V c main_arg0) (V c main_v0) (((cfg0.win 2).blk t).view.emb j)
  refine pay_at _ _ _ _ t.val (fun y k h0 h1 => blk_left V c t y k h0 h1) (blk_right V c t) j _ ?_ ?_
  · show win0_2.index t (0 : Fin 2) * 128 + 1 * (j 0).val = t.val * 128 + (j 0).val; rw [e0]; omega
  · show win0_2.index t (1 : Fin 2) * 1024 + 1 * (j 1).val = (j 1).val; rw [e1]; omega

/-! ## The two row blocks cover the result -/

/-- An index of the result is in point t's block iff each coordinate is in the block's range. -/
theorem mem_blk (t : Fin cfg0.N) (i : S256x1024.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v1).slice (win0_2.rect t)).set ↔ _
  rw [View.set_slice_whole, Rect.mem_set_unit]
  exact Iff.rfl

/-- Row p of the result lies in the block of point p / 128, and every point writes back. -/
theorem covered (i : S256x1024.Idx) :
    ∃ t : Fin cfg0.N, (cfg0.win 2).flush t = true ∧ i ∈ ((cfg0.win 2).blk t).view.set := by
  have hN : grid0.N = 2 := N_0
  have hi0 : (i 0).val < 256 := (i 0).isLt
  have hi1 : (i 1).val < 1024 := (i 1).isLt
  obtain ⟨t, ht⟩ : ∃ t : Fin cfg0.N, t.val = (i 0).val / 128 :=
    ⟨⟨(i 0).val / 128, by show (i 0).val / 128 < grid0.N; rw [hN]; omega⟩, rfl⟩
  obtain ⟨-, -, -, -, e0, e1⟩ := blk_index t
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    rw [e0, ht]; omega
  | ⟨1, _⟩ =>
    show win0_2.index t (1 : Fin 2) * 1024 ≤ (i 1).val ∧ (i 1).val < win0_2.index t (1 : Fin 2) * 1024 + 1024
    rw [e1]; omega

/-! ## The result array after the region -/

/-- After the region the result array holds the whole-array product. -/
theorem prod_final (c : Dev nD) :
    (Fr.dat0 V c).arrAt 2 cfg0.N = prodArr (V c main_arg0) (V c main_v0) :=
  (Fr.dat0 V c).arrAt_eq_of_cover 2 (prodArr (V c main_arg0) (V c main_v0)) (fun t _ => flushed_eq V c t) covered

/-- Entry (p, q) of the result array after the region: the sum over a of A(p,a) · B(a,q)
    (`prodArr_ix2` spells the right side out as that sum). -/
theorem prod_arr (c : Dev nD) (p : Fin 256) (q : Fin 1024) :
    ((Fr.dat0 V c).arrAt 2 cfg0.N : Vec Ideal S256x1024 .f32) (ix2 p q)
      = prodArr (V c main_arg0) (V c main_v0) (ix2 p q) :=
  congrFun (prod_final V c) (ix2 p q)

end Cert.KernelIdeal.Val

end
-- ==== Proof.ValProdRun.lean ====
/-
  The array the second kernel reads, entry by entry, in terms of the two arguments.

  Before the first region the host flattens T (1024 × 64 × 16) to 1024 × 1024, row-major: column
  16·b + k of the flat array is the pair (b, k). The region multiplies x with it; after the region the
  host reads the 256 × 1024 product back as 256 × 64 × 16, row-major again. So entry (i, b, k) of that
  array is Σ_a x(i,a) · T(a,b,k).
-/
import proofs.«113968_j41326175322776_2_alg».proof.Proof.FrameRun
import proofs.«113968_j41326175322776_2_alg».proof.Proof.ValProd
import proofs.«113968_j41326175322776_2_alg».proof.Proof.Spec
import Idealize.ShloMosaic.Lib.StableHlo.Run

noncomputable section

namespace Cert.KernelIdeal.Val

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen

/-! ## The two reshapes at an index -/

/-- Row-major, entry (a, 16·b + k) of the flattened T is T (a, b, k). -/
theorem flat_apply (T : Vec Ideal S1024x64x16 .f32) (a : Fin 1024) (b : Fin 64) (k : Fin 16) (q : Fin 1024)
    (hq : q.val = 16 * b.val + k.val) :
    shapeCast S1024x1024 T shapeCasts_S1024x64x16_S1024x1024 (ix2 a q) = T (ix3 a b k) :=
  shapeCast_apply T shapeCasts_S1024x64x16_S1024x1024 (ix2 a q) (ix3 a b k) (by
    rw [Shape.rowMajor_val_three, Shape.rowMajor_val_two]
    have hb := b.isLt; have hk := k.isLt
    show (a.val * 64 + b.val) * 16 + k.val = a.val * 1024 + q.val
    omega)

/-- Row-major, entry (i, b, k) of a 256 × 1024 array read back as 256 × 64 × 16 is its entry (i, 16·b + k). -/
theorem unflat_apply (P : Vec Ideal S256x1024 .f32) (i : Fin 256) (b : Fin 64) (k : Fin 16) (q : Fin 1024)
    (hq : q.val = 16 * b.val + k.val) :
    shapeCast S256x64x16 P shapeCasts_S256x1024_S256x64x16 (ix3 i b k) = P (ix2 i q) :=
  shapeCast_apply P shapeCasts_S256x1024_S256x64x16 (ix3 i b k) (ix2 i q) (by
    rw [Shape.rowMajor_val_three, Shape.rowMajor_val_two]
    have hb := b.isLt; have hk := k.isLt
    show i.val * 1024 + q.val = (i.val * 64 + b.val) * 16 + k.val
    omega)

variable [Cert.KernelIdeal.Facts]
variable (m : (ℓ : Loc nD τ sig) → Buf (Elt Ideal) ℓ)

/-! ## What the first region finds, and what the second finds -/

/-- The host's first reshape does not write the left argument. -/
theorem left_arr (c : Dev nD) : Fr.V1 m c main_arg0 = m ((c : Thread nD τ).loc main_arg0) :=
  StableHlo.after_of_writes_sub hostOps0 _ hostOps0_writes (by decide : main_arg0 ∉ hostOps0_W)

/-- The right array the first region reads is the flattened T. -/
theorem right_arr (c : Dev nD) :
    (Fr.V1 m c main_v0 : Vec Ideal S1024x1024 .f32)
      = shapeCast S1024x1024 (m ((c : Thread nD τ).loc main_arg1) : Vec Ideal S1024x64x16 .f32) shapeCasts_S1024x64x16_S1024x1024 := by
  show StableHlo.after hostOps0 (Fr.W0 m c) (Proc.devRef .tc main_v0) = _
  after_results
  rfl

/-- The array the second region reads is the first region's result array read back as 256 × 64 × 16. -/
theorem read_back (c : Dev nD) :
    (Fr.V3 m c main_v2 : Vec Ideal S256x64x16 .f32)
      = shapeCast S256x64x16 ((Fr.dat0 (Fr.V1 m) c).arrAt 2 cfg0.N : Vec Ideal S256x1024 .f32) shapeCasts_S256x1024_S256x64x16 := by
  show StableHlo.after hostOps1 (Fr.W2 m c) (Proc.devRef .tc main_v2) = _
  after_results
  rw [← Fr.W2_arr m c 2]
  rfl

/-! ## The products -/

/-- Entry (i, b, k) of the array the second region reads is the specification's product. -/
theorem v2_eq (c : Dev nD) (i : Fin 256) (b : Fin 64) (k : Fin 16) :
    (Fr.V3 m c main_v2 : Vec Ideal S256x64x16 .f32) (ix3 i b k)
      = Cert.Spec.prodAt (m ((c : Thread nD τ).loc main_arg0)) (m ((c : Thread nD τ).loc main_arg1)) i b k := by
  have hb := b.isLt; have hk := k.isLt
  rw [read_back m c, unflat_apply _ i b k ⟨16 * b.val + k.val, by omega⟩ rfl, prod_arr (Fr.V1 m) c, prodArr_ix2,
    left_arr m c, right_arr m c]
  unfold Cert.Spec.prodAt
  show @Eq EReal _ _
  refine Finset.sum_congr rfl fun a _ => ?_
  rw [flat_apply _ a b k ⟨16 * b.val + k.val, by omega⟩ rfl]

end Cert.KernelIdeal.Val

end
-- ==== Proof.ValFinal.lean ====
/-
  The second kernel's result array, whole: every entry lies in the block written back by exactly the points with second
  coordinate 7 (row q is in the block of point 8·(q / 32) + 7), and what those points write back is, row by row, the
  specification's result of the product array the region read. With the product array identified, the result array is
  the specification's result of the two arguments.
-/
import proofs.«113968_j41326175322776_2_alg».proof.Proof.ValRows
import proofs.«113968_j41326175322776_2_alg».proof.Proof.ValProdRun

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Fr

/-- An index of the result array is in point t's block iff each coordinate is in the block's range on its axis. -/
theorem mem_blk2 (t : Fin cfg1.N) (i : S256x64.Idx) :
    i ∈ ((cfg1.win 2).blk t).view.set ↔ ∀ a : Fin 2, win1_2.index t a * S32x64.size a ≤ (i a).val ∧ (i a).val < win1_2.index t a * S32x64.size a + S32x64.size a := by
  show i ∈ ((View.whole main_v3).slice (win1_2.rect t)).set ↔ _
  rw [View.set_slice_whole, Rect.mem_set_unit]
  exact Iff.rfl

variable (V : (c : Dev nD) → (b : Ref sig .tc) → Buf (Elt Ideal) ((c : Thread nD τ).loc b)) (c : Dev nD)

/-- THE RESULT ARRAY after the second region, given the product array it read. -/
theorem result_arr (x : Cert.Spec.SX.Idx → EReal) (T : Cert.Spec.ST.Idx → EReal)
    (hP : ∀ (i : Fin 256) (b : Fin 64) (k : Fin 16), V c main_v2 (ix3 i b k) = Cert.Spec.prodAt x T i b k) :
    (dat1 V c).arrAt 2 cfg1.N = Cert.Spec.result x T := by
  have hPof : Pof V c = Cert.Spec.prodAt x T := by funext i b k; exact hP i b k
  refine (dat1 V c).arrAt_eq_of_cover 2 (Cert.Spec.result x T) (fun t hf => ?_) (fun i => ?_)
  · have h7 : t.val % 8 = 7 := (flush1_2 t).mp hf
    have hN : t.val < 64 := lt_of_lt_of_eq t.isLt (show cfg1.N = 64 from N_1)
    show (cfg1.win 2).cut (grid1.coords t) ((dat1 V c).after 2 t) = _
    rw [after1_2]
    funext j
    obtain ⟨r, b, rfl⟩ : ∃ (r : Fin 32) (b : Fin 64), j = ix2 r b := ⟨j 0, j 1, @eq_ix2 32 64 j⟩
    have hr : 32 * (t.val / 8) + r.val < 256 := by have := r.isLt; omega
    rw [View.read_apply, blk2_emb t r b hr]
    show (outsAt1 V c t.val t.isLt).1 (ix2 r b) = Cert.Spec.result x T (ix2 ⟨32 * (t.val / 8) + r.val, hr⟩ b)
    rw [Cert.Spec.result_ix2, row_eq V c t h7 r b hr, hPof]
    rfl
  · have hi0 : (i 0).val < 256 := (i 0).isLt
    have hi1 : (i 1).val < 64 := (i 1).isLt
    have hT : 8 * ((i 0).val / 32) + 7 < cfg1.N := lt_of_lt_of_eq (by omega : 8 * ((i 0).val / 32) + 7 < 64) (show 64 = cfg1.N from N_1.symm)
    refine ⟨⟨8 * ((i 0).val / 32) + 7, hT⟩, (flush1_2 _).mpr (by show (8 * ((i 0).val / 32) + 7) % 8 = 7; omega), ?_⟩
    rw [mem_blk2]
    obtain ⟨-, -, -, -, -, -, e0, e1⟩ := idx_facts1 ⟨8 * ((i 0).val / 32) + 7, hT⟩
    have e0' : win1_2.index ⟨8 * ((i 0).val / 32) + 7, hT⟩ (0 : Fin 2) = (8 * ((i 0).val / 32) + 7) / 8 := e0
    intro a
    match a with
    | ⟨0, _⟩ =>
      show win1_2.index ⟨8 * ((i 0).val / 32) + 7, hT⟩ (0 : Fin 2) * 32 ≤ (i 0).val ∧ (i 0).val < win1_2.index ⟨8 * ((i 0).val / 32) + 7, hT⟩ (0 : Fin 2) * 32 + 32
      rw [e0']; omega
    | ⟨1, _⟩ =>
      show win1_2.index ⟨8 * ((i 0).val / 32) + 7, hT⟩ (1 : Fin 2) * 64 ≤ (i 1).val ∧ (i 1).val < win1_2.index ⟨8 * ((i 0).val / 32) + 7, hT⟩ (1 : Fin 2) * 64 + 64
      rw [e1]; omega

/-- THE KERNEL'S RESULT: after the whole run the result array is the specification's result of the two arguments. -/
theorem kernel_result (m : (ℓ : Loc nD τ sig) → Buf (Elt Ideal) ℓ) (c : Dev nD) :
    (dat1 (V3 m) c).arrAt 2 cfg1.N
      = Cert.Spec.result (m ((c : Thread nD τ).loc main_arg0)) (m ((c : Thread nD τ).loc main_arg1)) :=
  result_arr (V3 m) c _ _ (fun i b k => v2_eq m c i b k)

end Cert.KernelIdeal.Val

end
-- ==== Proof.lean ====
/-
  The certificate's proof.

  The kernel computes, in two regions, the product P of its first argument with its second (flattened over its last
  two axes) and then, for every row i and group b, the sum over all rows j of exp(−Σ_c |P(i,b,c) − P(j,b,c)|), less 1
  for the first row and less the term against the last row for every other row; the reference computes the same
  entries in one sweep. At the ideal values a change of float format is the identity and a sum is a sum in a
  commutative monoid however it is blocked, so both programs end at one function of the arguments (Spec.lean), entry
  by entry; no finiteness of the inputs is used. Each program's frame — it runs to the end, faults nowhere and leaves
  its arguments unchanged — is read off its run; the idealization rewrote nothing, so `preserves` is trivial.
-/
import proofs.«113968_j41326175322776_2_alg».proof.Defs
import proofs.«113968_j41326175322776_2_alg».proof.Proof.Gen.Kernel
import proofs.«113968_j41326175322776_2_alg».proof.Proof.Gen.KernelIdeal
import proofs.«113968_j41326175322776_2_alg».proof.Proof.Gen.ReferenceIdeal
import proofs.«113968_j41326175322776_2_alg».proof.Proof.Gen.Pre_finite_inputs
import proofs.«113968_j41326175322776_2_alg».proof.Proof.BFrameRun
import proofs.«113968_j41326175322776_2_alg».proof.Proof.FrameRun
import proofs.«113968_j41326175322776_2_alg».proof.Proof.RefValue
import proofs.«113968_j41326175322776_2_alg».proof.Proof.ValFinal

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

/-- And the idealized reference. -/
theorem frame_referenceIdeal : Cert.frame_ReferenceIdeal := Cert.ReferenceIdeal.RefValue.frame

/-- The idealization rewrote no operation. -/
theorem preserves : Cert.preserves_Kernel_KernelIdeal := trivial

/-- Both idealized programs end with the result array at the specification's result of the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Val.kernel_result m c), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
